-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2x128 : Shape := ⟨2, ![2, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg9 : FVec F S2x128 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  main_v38

def fn_part1 {F : FTy → Type} [FloatOps F] (main_arg6 : FVec F S128 .f32) (main_arg7 : FVec F S1x128 .f32) (main_arg8 : FVec F S2x128 .f32) (main_arg9 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_v33

def fn {F : FTy → Type} [FloatOps F] (main_arg0 : FVec F S50000x256 .f32) (main_arg1 : IVec S600000 32) (main_arg2 : IVec S600000 32) (main_arg3 : FVec F S128x256 .f32) (main_arg4 : FVec F S128 .f32) (main_arg5 : FVec F S128x128 .f32) (main_arg6 : FVec F S128 .f32) (main_arg7 : FVec F S1x128 .f32) (main_arg8 : FVec F S2x128 .f32) (main_arg9 : FVec F S2x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x256 : Shape := ⟨2, ![50000, 256]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2x128 : Shape := ⟨2, ![2, 128]⟩
abbrev S50000x128 : Shape := ⟨2, ![50000, 128]⟩
abbrev S5000x256 : Shape := ⟨2, ![5000, 256]⟩
abbrev S5000x128 : Shape := ⟨2, ![5000, 128]⟩
abbrev S256x128 : Shape := ⟨2, ![256, 128]⟩
abbrev S_ : Shape := ⟨0, ![]⟩
abbrev S50000 : Shape := ⟨1, ![50000]⟩
abbrev S600000x1 : Shape := ⟨2, ![600000, 1]⟩
abbrev S650000 : Shape := ⟨1, ![650000]⟩
abbrev S650000x1 : Shape := ⟨2, ![650000, 1]⟩
abbrev S50000x1 : Shape := ⟨2, ![50000, 1]⟩
abbrev S5000x1 : Shape := ⟨2, ![5000, 1]⟩
abbrev S650000x128 : Shape := ⟨2, ![650000, 128]⟩
abbrev S5000 : Shape := ⟨1, ![5000]⟩

abbrev nBuf : Space → Nat
  | .hbm => 114
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S2x128, .f32⟩
  | .hbm, ⟨9, _⟩ => ⟨S2x128, .f32⟩
  | .hbm, ⟨10, _⟩ => ⟨S1x128, .f32⟩
  | .hbm, ⟨11, _⟩ => ⟨S50000x128, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .i32⟩
  | .hbm, ⟨25, _⟩ => ⟨S650000, .i32⟩
  | .hbm, ⟨26, _⟩ => ⟨S650000, .i32⟩
  | .hbm, ⟨27, _⟩ => ⟨S_, .f32⟩
  | .hbm, ⟨28, _⟩ => ⟨S650000, .f32⟩
  | .hbm, ⟨29, _⟩ => ⟨S_, .f32⟩
  | .hbm, ⟨30, _⟩ => ⟨S50000, .f32⟩
  | .hbm, ⟨31, _⟩ => ⟨S650000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000, .f32⟩
  | .hbm, ⟨62, _⟩ => ⟨S650000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x128, .f32⟩
  | .hbm, ⟨75, _⟩ => ⟨S650000x1, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S650000, .i32⟩
  | .hbm, ⟨96, _⟩ => ⟨S650000, .i1⟩
  | .hbm, ⟨97, _⟩ => ⟨S_, .i32⟩
  | .hbm, ⟨98, _⟩ => ⟨S650000, .i32⟩
  | .hbm, ⟨99, _⟩ => ⟨S650000, .i32⟩
  | .hbm, ⟨100, _⟩ => ⟨S650000, .i32⟩
  | .hbm, ⟨101, _⟩ => ⟨S650000x1, .i32⟩
  | .hbm, ⟨102, _⟩ => ⟨S650000x128, .f32⟩
  | .hbm, ⟨103, _⟩ => ⟨S650000x1, .f32⟩
  | .hbm, ⟨104, _⟩ => ⟨S650000x128, .f32⟩
  | .hbm, ⟨105, _⟩ => ⟨S650000x128, .f32⟩
  | .hbm, ⟨106, _⟩ => ⟨S_, .f32⟩
  | .hbm, ⟨107, _⟩ => ⟨S50000x128, .f32⟩
  | .hbm, ⟨108, _⟩ => ⟨S650000x1, .i32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39_0 : Ref sig .tc := ⟨.hbm, 64, rfl⟩
abbrev main_v39_1 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63_0 : Ref sig .tc := ⟨.hbm, 92, rfl⟩
abbrev main_v63_1 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  concatenates_S600000_S50000_S650000_d0 : Shape.Concatenates [S600000, S50000] S650000 0
  bcast_S_S650000 : S_.BroadcastsInDim S650000 (![] : Fin 0 → Fin S650000.rank)
  bcast_S650000_S650000x1_0 : S650000.BroadcastsInDim S650000x1 (![0] : Fin 1 → Fin S650000x1.rank)
  shapeCasts_S50000_S50000x1 : S50000.ShapeCasts S50000x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128_S1x128_1_0 : S2x128.Slices ![1, 0] S1x128
  shapeCasts_S1x128_S128 : S1x128.ShapeCasts S128
  reduces_S5000x128_S5000 : S5000x128.Reduces [1] S5000
  shapeCasts_S5000_S5000x1 : S5000.ShapeCasts S5000x1
  dot_S5000x256_S256x128_S5000x128_1_0_0_1_n_n_wf : DotDims.WF S5000x256 S256x128 S5000x128 [1] [0] [0] [1] [] []
  scatter_S50000_S600000x1_S600000_n_0_0_1_wf : ScatterDims.WF S50000 S600000x1 S600000 [] [0] [0] 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v63_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v63_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x256 : Shape := ⟨2, ![50000, 256]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2x128 : Shape := ⟨2, ![2, 128]⟩
abbrev S256x128 : Shape := ⟨2, ![256, 128]⟩
abbrev S50000x128 : Shape := ⟨2, ![50000, 128]⟩
abbrev S_ : Shape := ⟨0, ![]⟩
abbrev S50000 : Shape := ⟨1, ![50000]⟩
abbrev S600000x1 : Shape := ⟨2, ![600000, 1]⟩
abbrev S650000 : Shape := ⟨1, ![650000]⟩
abbrev S650000x1 : Shape := ⟨2, ![650000, 1]⟩
abbrev S650000x128 : Shape := ⟨2, ![650000, 128]⟩
abbrev S50000x1 : Shape := ⟨2, ![50000, 1]⟩

abbrev nBuf : Space → Nat
  | .hbm => 166
  | .vmem => 0
  | .smem => 0
  | _ => 0

abbrev hbmTy0_0 (i : Nat) : BufTy := match i % 128 with
  | 0 => ⟨S50000x256, .f32⟩
  | 1 => ⟨S600000, .i32⟩
  | 2 => ⟨S600000, .i32⟩
  | 3 => ⟨S128x256, .f32⟩
  | 4 => ⟨S128, .f32⟩
  | 5 => ⟨S128x128, .f32⟩
  | 6 => ⟨S128, .f32⟩
  | 7 => ⟨S1x128, .f32⟩
  | 8 => ⟨S2x128, .f32⟩
  | 9 => ⟨S2x128, .f32⟩
  | 10 => ⟨S256x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000, .i32⟩
  | 28 => ⟨S650000, .i32⟩
  | 29 => ⟨S650000, .i32⟩
  | 30 => ⟨S_, .f32⟩
  | 31 => ⟨S650000, .f32⟩
  | 32 => ⟨S_, .f32⟩
  | 33 => ⟨S50000, .f32⟩
  | 34 => ⟨S650000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000, .f32⟩
  | 65 => ⟨S650000, .f32⟩
  | 66 => ⟨S128, .f32⟩
  | 67 => ⟨S128x128, .f32⟩
  | 68 => ⟨S50000x128, .f32⟩
  | 69 => ⟨S650000x1, .f32⟩
  | 70 => ⟨S_, .i32⟩
  | 71 => ⟨S650000, .i32⟩
  | 72 => ⟨S650000, .i1⟩
  | 73 => ⟨S_, .i32⟩
  | 74 => ⟨S650000, .i32⟩
  | 75 => ⟨S650000, .i32⟩
  | 76 => ⟨S650000, .i32⟩
  | 77 => ⟨S650000x1, .i32⟩
  | 78 => ⟨S650000x128, .f32⟩
  | 79 => ⟨S650000x128, .f32⟩
  | 80 => ⟨S650000x128, .f32⟩
  | 81 => ⟨S_, .f32⟩
  | 82 => ⟨S50000x128, .f32⟩
  | 83 => ⟨S650000x1, .i32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x1, .f32⟩
  | 95 => ⟨S50000x128, .f32⟩
  | 96 => ⟨S50000x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S_, .f32⟩
  | 121 => ⟨S50000x1, .f32⟩
  | 122 => ⟨S50000x1, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S128x128, .f32⟩
  | 8 => ⟨S50000x128, .f32⟩
  | 9 => ⟨S650000x1, .f32⟩
  | 10 => ⟨S_, .i32⟩
  | 11 => ⟨S650000, .i32⟩
  | 12 => ⟨S650000, .i1⟩
  | 13 => ⟨S_, .i32⟩
  | 14 => ⟨S650000, .i32⟩
  | 15 => ⟨S650000, .i32⟩
  | 16 => ⟨S650000, .i32⟩
  | 17 => ⟨S650000x1, .i32⟩
  | 18 => ⟨S650000x128, .f32⟩
  | 19 => ⟨S650000x128, .f32⟩
  | 20 => ⟨S650000x128, .f32⟩
  | 21 => ⟨S_, .f32⟩
  | 22 => ⟨S50000x128, .f32⟩
  | 23 => ⟨S650000x1, .i32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x1, .f32⟩
  | 35 => ⟨S50000x128, .f32⟩
  | 36 => ⟨S50000x128, .f32⟩
  | 37 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call1_cst : Ref sig .tc := ⟨.hbm, 91, rfl⟩
abbrev main_call1_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call2_cst : Ref sig .tc := ⟨.hbm, 132, rfl⟩
abbrev main_call2_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_19 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_21 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call3_cst : Ref sig .tc := ⟨.hbm, 159, rfl⟩
abbrev main_call3_v0 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  concatenates_S600000_S50000_S650000_d0 : Shape.Concatenates [S600000, S50000] S650000 0
  bcast_S_S650000 : S_.BroadcastsInDim S650000 (![] : Fin 0 → Fin S650000.rank)
  bcast_S650000_S650000x1_0 : S650000.BroadcastsInDim S650000x1 (![0] : Fin 1 → Fin S650000x1.rank)
  shapeCasts_S1x128_S128 : S1x128.ShapeCasts S128
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128_S1x128_1_0 : S2x128.Slices ![1, 0] S1x128
  reducesTo_S50000x128_S50000_d1 : S50000x128.ReducesTo [1] S50000
  h_S_ : 0 < S_.numel
  bcast_S_S50000x1 : S_.BroadcastsInDim S50000x1 (![] : Fin 0 → Fin S50000x1.rank)
  dot_S50000x256_S256x128_S50000x128_1_0_0_1_n_n_wf : DotDims.WF S50000x256 S256x128 S50000x128 [1] [0] [0] [1] [] []
  scatter_S50000_S600000x1_S600000_n_0_0_1_wf : ScatterDims.WF S50000 S600000x1 S600000 [] [0] [0] 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.GcnRun.lean ====
/-
  The idealized kernel's run with its RESULT NAMED.  @main is three tiled regions (the input projection, the first
  propagation stage, the second one with its residual, layer norm and relu) among stretches of host operations
  (degrees, edge weights, the gather and scatter-add of each propagation step).  Its generated frame states only that
  the argument arrays end as launched; the same launch over the same segments also leaves every unscoped buffer at the
  contents of the last boundary of the fold through @main, so the result buffer ends at that boundary's contents too.
  Nothing is said here about what those contents are: that is read, stretch by stretch and region by region, in the
  modules that import this one.
-/
import proofs.«138754_j56521769616160_1_alg».proof.Proof.Gen.KernelIdeal.Frame

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents the fold
    through @main's segments gives it at the last boundary, and the argument arrays end as launched. -/
theorem run_result : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Gcn

end
-- ==== Proof.GcnHost.lean ====
/-
  The host side of the kernel's run: what the buffers that later segments read hold at each boundary of the fold through
  @main.  The fold alternates stretches of host operations with the three regions.  A stretch leaves every buffer it does
  not write; a region leaves every buffer that is not one of its arrays, leaves its input arrays as it found them, and
  leaves each output array at what its write-backs fold to.  So each buffer read late is walked back to the boundary
  where it was produced: an argument to the launch memory, the projection's result to the first region's output array,
  the degree and edge buffers to the first stretch after that region.
-/
import proofs.«138754_j56521769616160_1_alg».proof.Proof.Gen.KernelIdeal.Frame
import Idealize.ShloMosaic.Lib.StableHlo.Run

set_option maxRecDepth 16384

noncomputable section

namespace Cert.KernelIdeal.Gcn

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- A stretch of host operations leaves a buffer none of them writes. -/
macro "hskip" : tactic => `(tactic|
  (refine StableHlo.after_of_forall_not_mem _ _ (List.forall_iff_forall_mem.mp ?_)
   simp only [hostOps0, hostOps1, hostOps1_1, hostOps1_2, hostOps2, hostOps3, List.flatten_cons, List.flatten_nil, List.append_nil,
     List.cons_append, List.nil_append, List.Forall, StableHlo.nullary_writes, StableHlo.unary_writes, StableHlo.binary_writes,
     StableHlo.ternary_writes, StableHlo.quaternary_writes, StableHlo.reshape_writes, StableHlo.binaryIndexed_writes, Finset.mem_singleton]
   repeat' apply And.intro
   all_goals exact StableHlo.devRef_ne_of_ne (by decide)))

/-- The launch contents of a buffer. -/
theorem W0_eq (c : Dev nD) (b : Ref sig .tc) : W0 m ρ c (Proc.devRef .tc b) = m ((c : Thread nD τ).loc b) := rfl

/-! ## The arguments, at the boundaries where they are read -/

/-- The node features when the projection is entered: as launched. -/
theorem arg0_at1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by hskip

/-- The projection's weight when it is entered: as launched. -/
theorem arg3_at1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by hskip

/-- The edge targets after the projection: as launched. -/
theorem arg1_at2 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := by hskip

/-- The edge sources after the projection: as launched. -/
theorem arg2_at2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := by hskip

/-- The convolution weight when the first stage is entered: as launched. -/
theorem arg5_at5 (c : Dev nD) : W5 m ρ c (Proc.devRef .tc main_arg5) = W0 m ρ c (Proc.devRef .tc main_arg5) :=
  calc W5 m ρ c (Proc.devRef .tc main_arg5)
    _ = W4 m ρ c (Proc.devRef .tc main_arg5) := by hskip
    _ = W3 m ρ c (Proc.devRef .tc main_arg5) := by hskip
    _ = W2 m ρ c (Proc.devRef .tc main_arg5) := by hskip
    _ = W1 m ρ c (Proc.devRef .tc main_arg5) := W2_of_ne m ρ c main_arg5 (by decide)
    _ = W0 m ρ c (Proc.devRef .tc main_arg5) := by hskip

/-- The root embedding when the first stage is entered: as launched. -/
theorem arg7_at5 (c : Dev nD) : W5 m ρ c (Proc.devRef .tc main_arg7) = W0 m ρ c (Proc.devRef .tc main_arg7) :=
  calc W5 m ρ c (Proc.devRef .tc main_arg7)
    _ = W4 m ρ c (Proc.devRef .tc main_arg7) := by hskip
    _ = W3 m ρ c (Proc.devRef .tc main_arg7) := by hskip
    _ = W2 m ρ c (Proc.devRef .tc main_arg7) := by hskip
    _ = W1 m ρ c (Proc.devRef .tc main_arg7) := W2_of_ne m ρ c main_arg7 (by decide)
    _ = W0 m ρ c (Proc.devRef .tc main_arg7) := by hskip

/-- The convolution bias after the first stage: as launched. -/
theorem arg6_at6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by hskip
    _ = W3 m ρ c (Proc.devRef .tc main_arg6) := by hskip
    _ = W2 m ρ c (Proc.devRef .tc main_arg6) := by hskip
    _ = W1 m ρ c (Proc.devRef .tc main_arg6) := W2_of_ne m ρ c main_arg6 (by decide)
    _ = W0 m ρ c (Proc.devRef .tc main_arg6) := by hskip

/-- The layer-norm scales after the first stage: as launched. -/
theorem arg8_at6 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by hskip
    _ = W3 m ρ c (Proc.devRef .tc main_arg8) := by hskip
    _ = W2 m ρ c (Proc.devRef .tc main_arg8) := by hskip
    _ = W1 m ρ c (Proc.devRef .tc main_arg8) := W2_of_ne m ρ c main_arg8 (by decide)
    _ = W0 m ρ c (Proc.devRef .tc main_arg8) := by hskip

/-- The layer-norm shifts after the first stage: as launched. -/
theorem arg9_at6 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := by hskip
    _ = W3 m ρ c (Proc.devRef .tc main_arg9) := by hskip
    _ = W2 m ρ c (Proc.devRef .tc main_arg9) := by hskip
    _ = W1 m ρ c (Proc.devRef .tc main_arg9) := W2_of_ne m ρ c main_arg9 (by decide)
    _ = W0 m ρ c (Proc.devRef .tc main_arg9) := by hskip

/-- The convolution bias after the second stage: as launched. -/
theorem arg6_at8 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := by hskip
    _ = W5 m ρ c (Proc.devRef .tc main_arg6) := W6_of_ne m ρ c main_arg6 (by decide)
    _ = W4 m ρ c (Proc.devRef .tc main_arg6) := by hskip
    _ = W3 m ρ c (Proc.devRef .tc main_arg6) := by hskip
    _ = W2 m ρ c (Proc.devRef .tc main_arg6) := by hskip
    _ = W1 m ρ c (Proc.devRef .tc main_arg6) := W2_of_ne m ρ c main_arg6 (by decide)
    _ = W0 m ρ c (Proc.devRef .tc main_arg6) := by hskip

/-- The convolution weight when the second stage is entered is what the first stage found. -/
theorem arg5_at7 (c : Dev nD) : W7 m ρ c (Proc.devRef .tc main_arg5) = W5 m ρ c (Proc.devRef .tc main_arg5) :=
  calc W7 m ρ c (Proc.devRef .tc main_arg5)
    _ = W6 m ρ c (Proc.devRef .tc main_arg5) := by hskip
    _ = W5 m ρ c (Proc.devRef .tc main_arg5) := (W6_arr m ρ c 1).trans (((dat1 (V5 m ρ) c).arrAt_in 1 rfl _).trans (A_eq1 (V5 m ρ) c 1))

/-- The root embedding when the second stage is entered is what the first stage found. -/
theorem arg7_at7 (c : Dev nD) : W7 m ρ c (Proc.devRef .tc main_arg7) = W5 m ρ c (Proc.devRef .tc main_arg7) :=
  calc W7 m ρ c (Proc.devRef .tc main_arg7)
    _ = W6 m ρ c (Proc.devRef .tc main_arg7) := by hskip
    _ = W5 m ρ c (Proc.devRef .tc main_arg7) := (W6_arr m ρ c 2).trans (((dat1 (V5 m ρ) c).arrAt_in 2 rfl _).trans (A_eq1 (V5 m ρ) c 2))

/-! ## The projection's result and the degree column, carried to the stages that read them -/

/-- The projection's result when the first stage is entered: as the projection left it. -/
theorem h_at5 (c : Dev nD) : W5 m ρ c (Proc.devRef .tc main_v1) = W2 m ρ c (Proc.devRef .tc main_v1) :=
  calc W5 m ρ c (Proc.devRef .tc main_v1)
    _ = W4 m ρ c (Proc.devRef .tc main_v1) := by hskip
    _ = W3 m ρ c (Proc.devRef .tc main_v1) := by hskip
    _ = W2 m ρ c (Proc.devRef .tc main_v1) := by hskip

/-- The projection's result when the second stage is entered: as the first stage found it. -/
theorem h_at7 (c : Dev nD) : W7 m ρ c (Proc.devRef .tc main_v1) = W5 m ρ c (Proc.devRef .tc main_v1) :=
  calc W7 m ρ c (Proc.devRef .tc main_v1)
    _ = W6 m ρ c (Proc.devRef .tc main_v1) := by hskip
    _ = W5 m ρ c (Proc.devRef .tc main_v1) := (W6_arr m ρ c 0).trans (((dat1 (V5 m ρ) c).arrAt_in 0 rfl _).trans (A_eq1 (V5 m ρ) c 0))

/-- The inverse-degree column when the second stage is entered: as the first stage found it. -/
theorem dcol_at7 (c : Dev nD) : W7 m ρ c (Proc.devRef .tc main_v38) = W5 m ρ c (Proc.devRef .tc main_v38) :=
  calc W7 m ρ c (Proc.devRef .tc main_v38)
    _ = W6 m ρ c (Proc.devRef .tc main_v38) := by hskip
    _ = W5 m ρ c (Proc.devRef .tc main_v38) := (W6_arr m ρ c 3).trans (((dat1 (V5 m ρ) c).arrAt_in 3 rfl _).trans (A_eq1 (V5 m ρ) c 3))

/-- The inverse degrees across the rectifier's stretch. -/
theorem dinv_at4 (c : Dev nD) : W4 m ρ c (Proc.devRef .tc main_v9) = W3 m ρ c (Proc.devRef .tc main_v9) :=
  calc W4 m ρ c (Proc.devRef .tc main_v9)
    _ = W3 m ρ c (Proc.devRef .tc main_v9) := by hskip

/-! ## The edge buffers, carried to the two propagation steps -/

/-- The edge targets (with self loops) across the rectifier's stretch. -/
theorem tgt_at4 (c : Dev nD) : W4 m ρ c (Proc.devRef .tc main_v11) = W3 m ρ c (Proc.devRef .tc main_v11) :=
  calc W4 m ρ c (Proc.devRef .tc main_v11)
    _ = W3 m ρ c (Proc.devRef .tc main_v11) := by hskip

/-- The edge sources (with self loops) across the rectifier's stretch. -/
theorem src_at4 (c : Dev nD) : W4 m ρ c (Proc.devRef .tc main_v12) = W3 m ρ c (Proc.devRef .tc main_v12) :=
  calc W4 m ρ c (Proc.devRef .tc main_v12)
    _ = W3 m ρ c (Proc.devRef .tc main_v12) := by hskip

/-- The edge targets after the first stage: as first computed. -/
theorem tgt_at6 (c : Dev nD) : W6 m ρ c (Proc.devRef .tc main_v11) = W3 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := by hskip
    _ = W3 m ρ c (Proc.devRef .tc main_v11) := by hskip

/-- The edge sources after the first stage: as first computed. -/
theorem src_at6 (c : Dev nD) : W6 m ρ c (Proc.devRef .tc main_v12) = W3 m ρ c (Proc.devRef .tc main_v12) :=
  calc W6 m ρ c (Proc.devRef .tc main_v12)
    _ = W5 m ρ c (Proc.devRef .tc main_v12) := W6_of_ne m ρ c main_v12 (by decide)
    _ = W4 m ρ c (Proc.devRef .tc main_v12) := by hskip
    _ = W3 m ρ c (Proc.devRef .tc main_v12) := by hskip

/-- The edge weights after the first stage: as computed before it. -/
theorem ew_at6 (c : Dev nD) : W6 m ρ c (Proc.devRef .tc main_v37) = W5 m ρ c (Proc.devRef .tc main_v37) :=
  calc W6 m ρ c (Proc.devRef .tc main_v37)
    _ = W5 m ρ c (Proc.devRef .tc main_v37) := W6_of_ne m ρ c main_v37 (by decide)

/-- The edge targets after the second stage: as first computed. -/
theorem tgt_at8 (c : Dev nD) : W8 m ρ c (Proc.devRef .tc main_v11) = W3 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := by hskip
    _ = W5 m ρ c (Proc.devRef .tc main_v11) := W6_of_ne m ρ c main_v11 (by decide)
    _ = W4 m ρ c (Proc.devRef .tc main_v11) := by hskip
    _ = W3 m ρ c (Proc.devRef .tc main_v11) := by hskip

/-- The edge sources after the second stage: as first computed. -/
theorem src_at8 (c : Dev nD) : W8 m ρ c (Proc.devRef .tc main_v12) = W3 m ρ c (Proc.devRef .tc main_v12) :=
  calc W8 m ρ c (Proc.devRef .tc main_v12)
    _ = W7 m ρ c (Proc.devRef .tc main_v12) := W8_of_ne m ρ c main_v12 (by decide)
    _ = W6 m ρ c (Proc.devRef .tc main_v12) := by hskip
    _ = W5 m ρ c (Proc.devRef .tc main_v12) := W6_of_ne m ρ c main_v12 (by decide)
    _ = W4 m ρ c (Proc.devRef .tc main_v12) := by hskip
    _ = W3 m ρ c (Proc.devRef .tc main_v12) := by hskip

/-- The edge weights after the second stage: as computed before the first. -/
theorem ew_at8 (c : Dev nD) : W8 m ρ c (Proc.devRef .tc main_v37) = W5 m ρ c (Proc.devRef .tc main_v37) :=
  calc W8 m ρ c (Proc.devRef .tc main_v37)
    _ = W7 m ρ c (Proc.devRef .tc main_v37) := W8_of_ne m ρ c main_v37 (by decide)
    _ = W6 m ρ c (Proc.devRef .tc main_v37) := by hskip
    _ = W5 m ρ c (Proc.devRef .tc main_v37) := W6_of_ne m ρ c main_v37 (by decide)

/-! ## The regions' output arrays -/

/-- The projection's result after its region: what the region's write-backs fold to. -/
theorem h_at2 (c : Dev nD) : W2 m ρ c (Proc.devRef .tc main_v1) = (dat0 (V1 m ρ) c).arrAt 3 cfg0.N := W2_arr m ρ c 3
/-- The first stage's two results after its region. -/
theorem xw0_at6 (c : Dev nD) : W6 m ρ c (Proc.devRef .tc main_v39_0) = (dat1 (V5 m ρ) c).arrAt 4 cfg1.N := W6_arr m ρ c 4
theorem rc0_at6 (c : Dev nD) : W6 m ρ c (Proc.devRef .tc main_v39_1) = (dat1 (V5 m ρ) c).arrAt 5 cfg1.N := W6_arr m ρ c 5
/-- The second stage's two results after its region. -/
theorem xw1_at8 (c : Dev nD) : W8 m ρ c (Proc.devRef .tc main_v63_0) = (dat2 (V7 m ρ) c).arrAt 7 cfg2.N := W8_arr m ρ c 7
theorem rc1_at8 (c : Dev nD) : W8 m ρ c (Proc.devRef .tc main_v63_1) = (dat2 (V7 m ρ) c).arrAt 8 cfg2.N := W8_arr m ρ c 8

end Cert.KernelIdeal.Gcn

end
-- ==== Proof.GcnGraph.lean ====
/-
  The kernel's host stretches, one at a time, against the reference's stages.  Both programs derive the degrees, the
  edge list with self loops, the symmetric edge weights and each propagation step (gather the transformed features by
  source, scale by the edge weight, scatter-add by target, add the bias) with the same host operations in the same
  order; only what flows INTO those operations differs (a region's output array on one side, a dense product on the
  other).  So each stretch is read from an arbitrary valuation of the buffers before it: if the buffers it reads hold
  the reference's stages of some arguments, the buffer it writes holds the reference's next stage of the same arguments.
  The stretches are never opened beyond that: the scatter and gather stay the operations they are.
-/
import proofs.«138754_j56521769616160_1_alg».proof.Proof.GcnHost
import proofs.«138754_j56521769616160_1_alg».proof.Proof.RefReadP
import Idealize.ShloMosaic.Lib.ValueLayout

set_option maxRecDepth 16384

noncomputable section

namespace Cert.KernelIdeal.Gcn

open Cert.KernelIdeal Cert.KernelIdeal.Gen
open Idealize.ShloMosaic Idealize.ShloMosaic.TcCoe Idealize.ShloMosaic.Tactic Idealize.SL.Sem Idealize.ShloMosaic.ValueIdx
open Cert.ReferenceIdeal.ReadP

variable {F : FTy → Type} [FloatOps F]

/-! ## The stretch after the projection: degrees and the edge list -/

/-- The inverse degrees (one over one plus the number of edges into a node). -/
theorem dinv_of (V : Valuation τ sig (Elt F)) :
    StableHlo.after hostOps1 V (Proc.devRef .tc main_v9) = val_main_v12 (F := F) (V (Proc.devRef .tc main_arg1)) := by
  after_results_simp
  rfl

/-- The edge targets followed by one self loop per node. -/
theorem tgt_of (V : Valuation τ sig (Elt F)) :
    StableHlo.after hostOps1 V (Proc.devRef .tc main_v11) = val_main_v14 (F := F) (V (Proc.devRef .tc main_arg1)) := by
  after_results_simp
  rfl

/-- The edge sources followed by one self loop per node. -/
theorem src_of (V : Valuation τ sig (Elt F)) :
    StableHlo.after hostOps1 V (Proc.devRef .tc main_v12) = val_main_v15 (F := F) (V (Proc.devRef .tc main_arg2)) := by
  after_results_simp
  rfl

/-- Where a node has an edge into it (with the self loop: always). -/
theorem pos_of (V : Valuation τ sig (Elt F)) :
    StableHlo.after hostOps1 V (Proc.devRef .tc main_v18) = val_main_v21 (F := F) (V (Proc.devRef .tc main_arg1)) := by
  after_results_simp
  rfl

/-- One over the square root of the degree (at least one). -/
theorem rs_of (V : Valuation τ sig (Elt F)) :
    StableHlo.after hostOps1 V (Proc.devRef .tc main_v21) = val_main_v24 (F := F) (V (Proc.devRef .tc main_arg1)) := by
  after_results_simp
  rfl

/-- The zero the rectified inverse root falls back to. -/
theorem zero_of (V : Valuation τ sig (Elt F)) :
    StableHlo.after hostOps1 V (Proc.devRef .tc main_cst_7) = val_main_cst_7 (F := F) := by
  after_results_simp
  rfl

/-! ## The selection's stretch and the edge weights -/

/-- The inverse root of the degree where the degree is positive, zero elsewhere. -/
theorem dis_of (V : Valuation τ sig (Elt F)) (x1 : (⟨Cert.ReferenceIdeal.S600000, .i32⟩ : BufTy).Contents (Elt F))
    (h18 : V (Proc.devRef .tc main_v18) = val_main_v21 (F := F) x1)
    (h21 : V (Proc.devRef .tc main_v21) = val_main_v24 (F := F) x1)
    (h7 : V (Proc.devRef .tc main_cst_7) = val_main_cst_7 (F := F)) :
    StableHlo.after hostOps1_1 V (Proc.devRef .tc main_v22) = val_main_v25 (F := F) x1 := by
  after_results_simp
  rw [h18, h21, h7]
  rfl

/-- The edge weights: the inverse roots gathered at the two ends of every edge, multiplied. -/
theorem ew_of (V : Valuation τ sig (Elt F)) (x1 : (⟨Cert.ReferenceIdeal.S600000, .i32⟩ : BufTy).Contents (Elt F)) (x2 : (⟨Cert.ReferenceIdeal.S600000, .i32⟩ : BufTy).Contents (Elt F))
    (h22 : V (Proc.devRef .tc main_v22) = val_main_v25 (F := F) x1)
    (h11 : V (Proc.devRef .tc main_v11) = val_main_v14 (F := F) x1)
    (h12 : V (Proc.devRef .tc main_v12) = val_main_v15 (F := F) x2) :
    StableHlo.after hostOps1_2 V (Proc.devRef .tc main_v37) = val_main_v40 (F := F) x1 x2 := by
  after_results_simp
  rw [h22, h11, h12]
  rfl

/-- The inverse degrees as a column: entry `(i, 0)` is the inverse degree of node `i`. -/
theorem dcol_of (V : Valuation τ sig (Elt F)) (i : Fin 50000) :
    (StableHlo.after hostOps1_2 V (Proc.devRef .tc main_v38) : S50000x1.Idx → Elt F .f32) (ix2 i (0 : Fin 1))
      = (V (Proc.devRef .tc main_v9) : S50000.Idx → Elt F .f32) (ix1 i) := by
  after_results_simp
  show shapeCast S50000x1 (V (Proc.devRef .tc main_v9) : S50000.Idx → Elt F .f32) shapeCasts_S50000_S50000x1 (ix2 i (0 : Fin 1)) = _
  refine shapeCast_apply (s := S50000) (t := S50000x1) _ _ _ _ ?_
  rw [Shape.rowMajor_val_two, Shape.rowMajor_val_one]
  show i.val = i.val * 1 + 0
  omega

/-! ## A propagation step -/

/-- The first step: gather the first stage's transformed features by source, scale by the edge weight, scatter-add by
    target, add the bias, add the stage's root term. -/
theorem prop_of (V : Valuation τ sig (Elt F)) (x0 : (⟨Cert.ReferenceIdeal.S50000x256, .f32⟩ : BufTy).Contents (Elt F)) (x1 : (⟨Cert.ReferenceIdeal.S600000, .i32⟩ : BufTy).Contents (Elt F)) (x2 : (⟨Cert.ReferenceIdeal.S600000, .i32⟩ : BufTy).Contents (Elt F)) (x3 : (⟨Cert.ReferenceIdeal.S128x256, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S1x128, .f32⟩ : BufTy).Contents (Elt F))
    (h11 : V (Proc.devRef .tc main_v11) = val_main_v14 (F := F) x1)
    (h37 : V (Proc.devRef .tc main_v37) = val_main_v40 (F := F) x1 x2)
    (hxw : V (Proc.devRef .tc main_v39_0) = val_main_v43 (F := F) x0 x3 x4 x5)
    (h12 : V (Proc.devRef .tc main_v12) = val_main_v15 (F := F) x2)
    (h6 : V (Proc.devRef .tc main_arg6) = x6)
    (hrc : V (Proc.devRef .tc main_v39_1) = val_main_v66 (F := F) x0 x1 x3 x4 x7) :
    StableHlo.after hostOps2 V (Proc.devRef .tc main_v56) = val_main_v67 (F := F) x0 x1 x2 x3 x4 x5 x6 x7 := by
  after_results_simp
  rw [h11, h37, hxw, h12, h6, hrc]
  rfl

/-- The second step, on the second stage's two results: the program's result. -/
theorem prop2_of (V : Valuation τ sig (Elt F)) (x0 : (⟨Cert.ReferenceIdeal.S50000x256, .f32⟩ : BufTy).Contents (Elt F)) (x1 : (⟨Cert.ReferenceIdeal.S600000, .i32⟩ : BufTy).Contents (Elt F)) (x2 : (⟨Cert.ReferenceIdeal.S600000, .i32⟩ : BufTy).Contents (Elt F)) (x3 : (⟨Cert.ReferenceIdeal.S128x256, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S1x128, .f32⟩ : BufTy).Contents (Elt F)) (x8 : (⟨Cert.ReferenceIdeal.S2x128, .f32⟩ : BufTy).Contents (Elt F)) (x9 : (⟨Cert.ReferenceIdeal.S2x128, .f32⟩ : BufTy).Contents (Elt F))
    (h11 : V (Proc.devRef .tc main_v11) = val_main_v14 (F := F) x1)
    (h37 : V (Proc.devRef .tc main_v37) = val_main_v40 (F := F) x1 x2)
    (hxw : V (Proc.devRef .tc main_v63_0) = val_main_v99 (F := F) x0 x1 x2 x3 x4 x5 x6 x7 x8 x9)
    (h12 : V (Proc.devRef .tc main_v12) = val_main_v15 (F := F) x2)
    (h6 : V (Proc.devRef .tc main_arg6) = x6)
    (hrc : V (Proc.devRef .tc main_v63_1) = val_main_v122 (F := F) x0 x1 x2 x3 x4 x5 x6 x7 x8 x9) :
    StableHlo.after hostOps3 V (Proc.devRef .tc main_v80) = val_main_v123 (F := F) x0 x1 x2 x3 x4 x5 x6 x7 x8 x9 := by
  after_results_simp
  rw [h11, h37, hxw, h12, h6, hrc]
  rfl

/-! ## The scale and shift rows of the second stage -/

/-- The scale row the second stage reads: row 1 of the scales. -/
theorem scale_of (V : Valuation τ sig (Elt F)) (k : Fin 128) :
    (StableHlo.after hostOps2 V (Proc.devRef .tc main_v59) : S1x128.Idx → Elt F .f32) (ix2 (0 : Fin 1) k)
      = (V (Proc.devRef .tc main_arg8) : S2x128.Idx → Elt F .f32) (ix2 (1 : Fin 2) k) := by
  after_results_simp
  show shapeCast S1x128 (shapeCast S128 (extractStridedSlice S1x128 ![1, 0] (V (Proc.devRef .tc main_arg8) : S2x128.Idx → Elt F .f32) slices_S2x128_S1x128_1_0) shapeCasts_S1x128_S128) shapeCasts_S128_S1x128 (ix2 (0 : Fin 1) k) = _
  rw [shapeCast_a_1a_apply, shapeCast_1a_a_apply]
  refine extractStridedSlice_apply _ _ _ _ _ fun a => ?_
  match a with
  | ⟨0, _⟩ => rfl
  | ⟨1, _⟩ => show k.val = 0 + k.val; omega

/-- The shift row the second stage reads: row 1 of the shifts. -/
theorem shift_of (V : Valuation τ sig (Elt F)) (k : Fin 128) :
    (StableHlo.after hostOps2 V (Proc.devRef .tc main_v62) : S1x128.Idx → Elt F .f32) (ix2 (0 : Fin 1) k)
      = (V (Proc.devRef .tc main_arg9) : S2x128.Idx → Elt F .f32) (ix2 (1 : Fin 2) k) := by
  after_results_simp
  show shapeCast S1x128 (shapeCast S128 (extractStridedSlice S1x128 ![1, 0] (V (Proc.devRef .tc main_arg9) : S2x128.Idx → Elt F .f32) slices_S2x128_S1x128_1_0) shapeCasts_S1x128_S128) shapeCasts_S128_S1x128 (ix2 (0 : Fin 1) k) = _
  rw [shapeCast_a_1a_apply, shapeCast_1a_a_apply]
  refine extractStridedSlice_apply _ _ _ _ _ fun a => ?_
  match a with
  | ⟨0, _⟩ => rfl
  | ⟨1, _⟩ => show k.val = 0 + k.val; omega

/-- The projection's bias as the row the region reads. -/
theorem bias_of (V : Valuation τ sig (Elt F)) (q : Fin 128) :
    (StableHlo.after hostOps0 V (Proc.devRef .tc main_v0) : S1x128.Idx → Elt F .f32) (ix2 (0 : Fin 1) q)
      = (V (Proc.devRef .tc main_arg4) : S128.Idx → Elt F .f32) (ix1 q) := by
  after_results_simp
  show shapeCast S1x128 (V (Proc.devRef .tc main_arg4) : S128.Idx → Elt F .f32) shapeCasts_S128_S1x128 (ix2 (0 : Fin 1) q) = _
  rw [shapeCast_a_1a_apply]

end Cert.KernelIdeal.Gcn

end
-- ==== Proof.GcnTiles.lean ====
/-
  How the three regions' windows sit in their arrays.  Every region runs over a grid of ten points; a window that moves
  with the grid holds, at point `t`, rows `5000 t … 5000 t + 4999` of its array (all of the lanes), and a window that
  does not move (a weight matrix, a bias or scale row) holds its whole array at every point.  So an entry `(p, k)` of a
  moving window's block at point `t` is entry `(5000 t + p, k)` of the array, and an entry of a still window's block is the
  same entry of the array.  For each output window: where an entry of the block lands in the array, and that the ten
  blocks cover the array (row `r` lies in the block of point `r / 5000`).  All of it at any float instance.
-/
import proofs.«138754_j56521769616160_1_alg».proof.Proof.Gen.KernelIdeal.Frame
import Idealize.ShloMosaic.Lib.Pipeline.Value
import Idealize.ShloMosaic.Lib.ValueIdx

set_option maxRecDepth 16384

noncomputable section

namespace Cert.KernelIdeal.Gcn

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The zero offsets of a whole-buffer access. -/
theorem hz : (![0, 0] : Fin 2 → Nat) = fun _ => 0 := funext fun a => by fin_cases a <;> rfl

/-- Row `p` of the block of point `t` is row `5000 t + p` of the array. -/
def rowOf (t : Fin 10) (p : Fin 5000) : Fin 50000 := ⟨5000 * t.val + p.val, by have := t.isLt; have := p.isLt; omega⟩

theorem rowOf_val (t : Fin 10) (p : Fin 5000) : (rowOf t p).val = 5000 * t.val + p.val := rfl

/-- Every row of the array is some point's: row `r` is row `r % 5000` of point `r / 5000`. -/
theorem rowOf_div_mod (i : Fin 50000) :
    rowOf ⟨i.val / 5000, by have := i.isLt; omega⟩ ⟨i.val % 5000, Nat.mod_lt _ (by decide)⟩ = i :=
  Fin.ext (by show 5000 * (i.val / 5000) + i.val % 5000 = i.val; omega)

/-! ## Region 0 -/

theorem tlt0 (t : Fin cfg0.N) : t.val < 10 := by have h : cfg0.N = 10 := N_0; have := t.isLt; omega

/-- The grid point as a number below ten. -/
abbrev pt0 (t : Fin cfg0.N) : Fin 10 := ⟨t.val, tlt0 t⟩

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)

/-- Window 0's block at point `t`: rows `5000 t + p` of its array. -/
theorem iblk0_0_apply (c : Dev nD) (t : Fin cfg0.N) (p : Fin 5000) (k : Fin 256) :
    (iblk0 V c 0 t : S5000x256.Idx → Elt F .f32) (ix2 p k)
      = (V c main_arg0 : S50000x256.Idx → Elt F .f32) (ix2 (rowOf (pt0 t) p) k) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 256 + 1 * k.val = k.val; rw [e1]; omega

/-- Window 1's block at every point: its whole array. -/
theorem iblk0_1_apply (c : Dev nD) (t : Fin cfg0.N) (p : Fin 128) (k : Fin 256) :
    (iblk0 V c 1 t : S128x256.Idx → Elt F .f32) (ix2 p k)
      = (V c main_arg3 : S128x256.Idx → Elt F .f32) (ix2 p k) := by
  obtain ⟨e0, e1⟩ := idx0_1 t
  unfold iblk0
  rw [View.read_apply]
  show V c main_arg3 _ = V c main_arg3 _
  congr 1
  funext a
  apply Fin.ext
  match a with
  | ⟨0, _⟩ => show win0_1.index t 0 * 128 + 1 * p.val = p.val; rw [e0]; omega
  | ⟨1, _⟩ => show win0_1.index t 1 * 256 + 1 * k.val = k.val; rw [e1]; omega

/-- Window 2's block at every point: its whole array. -/
theorem iblk0_2_apply (c : Dev nD) (t : Fin cfg0.N) (p : Fin 1) (k : Fin 128) :
    (iblk0 V c 2 t : S1x128.Idx → Elt F .f32) (ix2 p k)
      = (V c main_v0 : S1x128.Idx → Elt F .f32) (ix2 p k) := by
  obtain ⟨e0, e1⟩ := idx0_2 t
  unfold iblk0
  rw [View.read_apply]
  show V c main_v0 _ = V c main_v0 _
  congr 1
  funext a
  apply Fin.ext
  match a with
  | ⟨0, _⟩ => show win0_2.index t 0 * 1 + 1 * p.val = p.val; rw [e0]; omega
  | ⟨1, _⟩ => show win0_2.index t 1 * 128 + 1 * k.val = k.val; rw [e1]; omega

/-- Where an entry of output window 3's block at point `t` lands in its array. -/
theorem out0_3_emb (t : Fin cfg0.N) (p : Fin 5000) (q : Fin 128) :
    ((cfg0.win 3).blk t).view.emb (ix2 p q : S5000x128.Idx) = (ix2 (rowOf (pt0 t) p) q : S50000x128.Idx) := by
  obtain ⟨e0, e1⟩ := idx0_3 t
  funext a
  apply Fin.ext
  match a with
  | ⟨0, _⟩ => show win0_3.index t 0 * 5000 + 1 * p.val = 5000 * t.val + p.val; rw [e0]; omega
  | ⟨1, _⟩ => show win0_3.index t 1 * 128 + 1 * q.val = q.val; rw [e1]; omega

/-- Output window 3's ten blocks cover its array. -/
theorem out0_3_cover (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 10 := N_0
  have hT : (i 0).val / 5000 < cfg0.N := by omega
  refine ⟨⟨(i 0).val / 5000, hT⟩, flush0_3 _, ?_⟩
  obtain ⟨e0, e1⟩ := idx0_3 ⟨(i 0).val / 5000, hT⟩
  show i ∈ ((View.whole main_v1).slice (win0_3.rect ⟨(i 0).val / 5000, hT⟩)).set
  rw [View.set_slice_whole, Rect.mem_set_unit]
  intro a
  match a with
  | ⟨0, _⟩ => show win0_3.index ⟨(i 0).val / 5000, hT⟩ 0 * 5000 ≤ (i 0).val ∧ (i 0).val < win0_3.index ⟨(i 0).val / 5000, hT⟩ 0 * 5000 + 5000; rw [e0]; show (i 0).val / 5000 * 5000 ≤ (i 0).val ∧ (i 0).val < (i 0).val / 5000 * 5000 + 5000; omega
  | ⟨1, _⟩ => show win0_3.index ⟨(i 0).val / 5000, hT⟩ 1 * 128 ≤ (i 1).val ∧ (i 1).val < win0_3.index ⟨(i 0).val / 5000, hT⟩ 1 * 128 + 128; rw [e1]; omega

/-! ## Region 1 -/

theorem tlt1 (t : Fin cfg1.N) : t.val < 10 := by have h : cfg1.N = 10 := N_1; have := t.isLt; omega

/-- The grid point as a number below ten. -/
abbrev pt1 (t : Fin cfg1.N) : Fin 10 := ⟨t.val, tlt1 t⟩

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)

/-- Window 0's block at point `t`: rows `5000 t + p` of its array. -/
theorem iblk1_0_apply (c : Dev nD) (t : Fin cfg1.N) (p : Fin 5000) (k : Fin 128) :
    (iblk1 V c 0 t : S5000x128.Idx → Elt F .f32) (ix2 p k)
      = (V c main_v1 : S50000x128.Idx → Elt F .f32) (ix2 (rowOf (pt1 t) p) k) := by
  obtain ⟨e0, e1⟩ := idx1_0 t
  unfold iblk1
  rw [View.read_apply]
  show V c main_v1 _ = V c main_v1 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

/-- Window 1's block at every point: its whole array. -/
theorem iblk1_1_apply (c : Dev nD) (t : Fin cfg1.N) (p : Fin 128) (k : Fin 128) :
    (iblk1 V c 1 t : S128x128.Idx → Elt F .f32) (ix2 p k)
      = (V c main_arg5 : S128x128.Idx → Elt F .f32) (ix2 p k) := by
  obtain ⟨e0, e1⟩ := idx1_1 t
  unfold iblk1
  rw [View.read_apply]
  show V c main_arg5 _ = V c main_arg5 _
  congr 1
  funext a
  apply Fin.ext
  match a with
  | ⟨0, _⟩ => show win1_1.index t 0 * 128 + 1 * p.val = p.val; rw [e0]; omega
  | ⟨1, _⟩ => show win1_1.index t 1 * 128 + 1 * k.val = k.val; rw [e1]; omega

/-- Window 2's block at every point: its whole array. -/
theorem iblk1_2_apply (c : Dev nD) (t : Fin cfg1.N) (p : Fin 1) (k : Fin 128) :
    (iblk1 V c 2 t : S1x128.Idx → Elt F .f32) (ix2 p k)
      = (V c main_arg7 : S1x128.Idx → Elt F .f32) (ix2 p k) := by
  obtain ⟨e0, e1⟩ := idx1_2 t
  unfold iblk1
  rw [View.read_apply]
  show V c main_arg7 _ = V c main_arg7 _
  congr 1
  funext a
  apply Fin.ext
  match a with
  | ⟨0, _⟩ => show win1_2.index t 0 * 1 + 1 * p.val = p.val; rw [e0]; omega
  | ⟨1, _⟩ => show win1_2.index t 1 * 128 + 1 * k.val = k.val; rw [e1]; omega

/-- Window 3's block at point `t`: rows `5000 t + p` of its array. -/
theorem iblk1_3_apply (c : Dev nD) (t : Fin cfg1.N) (p : Fin 5000) (k : Fin 1) :
    (iblk1 V c 3 t : S5000x1.Idx → Elt F .f32) (ix2 p k)
      = (V c main_v38 : S50000x1.Idx → Elt F .f32) (ix2 (rowOf (pt1 t) p) k) := by
  obtain ⟨e0, e1⟩ := idx1_3 t
  unfold iblk1
  rw [View.read_apply]
  show V c main_v38 _ = V c main_v38 _
  congr 1
  funext a
  apply Fin.ext
  match a with
  | ⟨0, _⟩ => show win1_3.index t 0 * 5000 + 1 * p.val = 5000 * t.val + p.val; rw [e0]; omega
  | ⟨1, _⟩ => show win1_3.index t 1 * 1 + 1 * k.val = k.val; rw [e1]; omega

/-- Where an entry of output window 4's block at point `t` lands in its array. -/
theorem out1_4_emb (t : Fin cfg1.N) (p : Fin 5000) (q : Fin 128) :
    ((cfg1.win 4).blk t).view.emb (ix2 p q : S5000x128.Idx) = (ix2 (rowOf (pt1 t) p) q : S50000x128.Idx) := by
  obtain ⟨e0, e1⟩ := idx1_4 t
  funext a
  apply Fin.ext
  match a with
  | ⟨0, _⟩ => show win1_4.index t 0 * 5000 + 1 * p.val = 5000 * t.val + p.val; rw [e0]; omega
  | ⟨1, _⟩ => show win1_4.index t 1 * 128 + 1 * q.val = q.val; rw [e1]; omega

/-- Output window 4's ten blocks cover its array. -/
theorem out1_4_cover (i : S50000x128.Idx) :
    ∃ t : Fin cfg1.N, (cfg1.win 4).flush t = true ∧ i ∈ ((cfg1.win 4).blk t).view.set := by
  have h0 : (i 0).val < 50000 := (i 0).isLt
  have h1 : (i 1).val < 128 := (i 1).isLt
  have hN : cfg1.N = 10 := N_1
  have hT : (i 0).val / 5000 < cfg1.N := by omega
  refine ⟨⟨(i 0).val / 5000, hT⟩, flush1_4 _, ?_⟩
  obtain ⟨e0, e1⟩ := idx1_4 ⟨(i 0).val / 5000, hT⟩
  show i ∈ ((View.whole main_v39_0).slice (win1_4.rect ⟨(i 0).val / 5000, hT⟩)).set
  rw [View.set_slice_whole, Rect.mem_set_unit]
  intro a
  match a with
  | ⟨0, _⟩ => show win1_4.index ⟨(i 0).val / 5000, hT⟩ 0 * 5000 ≤ (i 0).val ∧ (i 0).val < win1_4.index ⟨(i 0).val / 5000, hT⟩ 0 * 5000 + 5000; rw [e0]; show (i 0).val / 5000 * 5000 ≤ (i 0).val ∧ (i 0).val < (i 0).val / 5000 * 5000 + 5000; omega
  | ⟨1, _⟩ => show win1_4.index ⟨(i 0).val / 5000, hT⟩ 1 * 128 ≤ (i 1).val ∧ (i 1).val < win1_4.index ⟨(i 0).val / 5000, hT⟩ 1 * 128 + 128; rw [e1]; omega

/-- Where an entry of output window 5's block at point `t` lands in its array. -/
theorem out1_5_emb (t : Fin cfg1.N) (p : Fin 5000) (q : Fin 128) :
    ((cfg1.win 5).blk t).view.emb (ix2 p q : S5000x128.Idx) = (ix2 (rowOf (pt1 t) p) q : S50000x128.Idx) := by
  obtain ⟨e0, e1⟩ := idx1_5 t
  funext a
  apply Fin.ext
  match a with
  | ⟨0, _⟩ => show win1_5.index t 0 * 5000 + 1 * p.val = 5000 * t.val + p.val; rw [e0]; omega
  | ⟨1, _⟩ => show win1_5.index t 1 * 128 + 1 * q.val = q.val; rw [e1]; omega

/-- Output window 5's ten blocks cover its array. -/
theorem out1_5_cover (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hN : cfg1.N = 10 := N_1
  have hT : (i 0).val / 5000 < cfg1.N := by omega
  refine ⟨⟨(i 0).val / 5000, hT⟩, flush1_5 _, ?_⟩
  obtain ⟨e0, e1⟩ := idx1_5 ⟨(i 0).val / 5000, hT⟩
  show i ∈ ((View.whole main_v39_1).slice (win1_5.rect ⟨(i 0).val / 5000, hT⟩)).set
  rw [View.set_slice_whole, Rect.mem_set_unit]
  intro a
  match a with
  | ⟨0, _⟩ => show win1_5.index ⟨(i 0).val / 5000, hT⟩ 0 * 5000 ≤ (i 0).val ∧ (i 0).val < win1_5.index ⟨(i 0).val / 5000, hT⟩ 0 * 5000 + 5000; rw [e0]; show (i 0).val / 5000 * 5000 ≤ (i 0).val ∧ (i 0).val < (i 0).val / 5000 * 5000 + 5000; omega
  | ⟨1, _⟩ => show win1_5.index ⟨(i 0).val / 5000, hT⟩ 1 * 128 ≤ (i 1).val ∧ (i 1).val < win1_5.index ⟨(i 0).val / 5000, hT⟩ 1 * 128 + 128; rw [e1]; omega

/-! ## Region 2 -/

theorem tlt2 (t : Fin cfg2.N) : t.val < 10 := by have h : cfg2.N = 10 := N_2; have := t.isLt; omega

/-- The grid point as a number below ten. -/
abbrev pt2 (t : Fin cfg2.N) : Fin 10 := ⟨t.val, tlt2 t⟩

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)

/-- Window 0's block at point `t`: rows `5000 t + p` of its array. -/
theorem iblk2_0_apply (c : Dev nD) (t : Fin cfg2.N) (p : Fin 5000) (k : Fin 128) :
    (iblk2 V c 0 t : S5000x128.Idx → Elt F .f32) (ix2 p k)
      = (V c main_v56 : S50000x128.Idx → Elt F .f32) (ix2 (rowOf (pt2 t) p) k) := by
  obtain ⟨e0, e1⟩ := idx2_0 t
  unfold iblk2
  rw [View.read_apply]
  show V c main_v56 _ = V c main_v56 _
  congr 1
  funext a
  apply Fin.ext
  match a with
  | ⟨0, _⟩ => show win2_0.index t 0 * 5000 + 1 * p.val = 5000 * t.val + p.val; rw [e0]; omega
  | ⟨1, _⟩ => show win2_0.index t 1 * 128 + 1 * k.val = k.val; rw [e1]; omega

/-- Window 1's block at point `t`: rows `5000 t + p` of its array. -/
theorem iblk2_1_apply (c : Dev nD) (t : Fin cfg2.N) (p : Fin 5000) (k : Fin 128) :
    (iblk2 V c 1 t : S5000x128.Idx → Elt F .f32) (ix2 p k)
      = (V c main_v1 : S50000x128.Idx → Elt F .f32) (ix2 (rowOf (pt2 t) p) k) := by
  obtain ⟨e0, e1⟩ := idx2_1 t
  unfold iblk2
  rw [View.read_apply]
  show V c main_v1 _ = V c main_v1 _
  congr 1
  funext a
  apply Fin.ext
  match a with
  | ⟨0, _⟩ => show win2_1.index t 0 * 5000 + 1 * p.val = 5000 * t.val + p.val; rw [e0]; omega
  | ⟨1, _⟩ => show win2_1.index t 1 * 128 + 1 * k.val = k.val; rw [e1]; omega

/-- Window 2's block at every point: its whole array. -/
theorem iblk2_2_apply (c : Dev nD) (t : Fin cfg2.N) (p : Fin 1) (k : Fin 128) :
    (iblk2 V c 2 t : S1x128.Idx → Elt F .f32) (ix2 p k)
      = (V c main_v59 : S1x128.Idx → Elt F .f32) (ix2 p k) := by
  obtain ⟨e0, e1⟩ := idx2_2 t
  unfold iblk2
  rw [View.read_apply]
  show V c main_v59 _ = V c main_v59 _
  congr 1
  funext a
  apply Fin.ext
  match a with
  | ⟨0, _⟩ => show win2_2.index t 0 * 1 + 1 * p.val = p.val; rw [e0]; omega
  | ⟨1, _⟩ => show win2_2.index t 1 * 128 + 1 * k.val = k.val; rw [e1]; omega

/-- Window 3's block at every point: its whole array. -/
theorem iblk2_3_apply (c : Dev nD) (t : Fin cfg2.N) (p : Fin 1) (k : Fin 128) :
    (iblk2 V c 3 t : S1x128.Idx → Elt F .f32) (ix2 p k)
      = (V c main_v62 : S1x128.Idx → Elt F .f32) (ix2 p k) := by
  obtain ⟨e0, e1⟩ := idx2_3 t
  unfold iblk2
  rw [View.read_apply]
  show V c main_v62 _ = V c main_v62 _
  congr 1
  funext a
  apply Fin.ext
  match a with
  | ⟨0, _⟩ => show win2_3.index t 0 * 1 + 1 * p.val = p.val; rw [e0]; omega
  | ⟨1, _⟩ => show win2_3.index t 1 * 128 + 1 * k.val = k.val; rw [e1]; omega

/-- Window 4's block at every point: its whole array. -/
theorem iblk2_4_apply (c : Dev nD) (t : Fin cfg2.N) (p : Fin 128) (k : Fin 128) :
    (iblk2 V c 4 t : S128x128.Idx → Elt F .f32) (ix2 p k)
      = (V c main_arg5 : S128x128.Idx → Elt F .f32) (ix2 p k) := by
  obtain ⟨e0, e1⟩ := idx2_4 t
  unfold iblk2
  rw [View.read_apply]
  show V c main_arg5 _ = V c main_arg5 _
  congr 1
  funext a
  apply Fin.ext
  match a with
  | ⟨0, _⟩ => show win2_4.index t 0 * 128 + 1 * p.val = p.val; rw [e0]; omega
  | ⟨1, _⟩ => show win2_4.index t 1 * 128 + 1 * k.val = k.val; rw [e1]; omega

/-- Window 5's block at every point: its whole array. -/
theorem iblk2_5_apply (c : Dev nD) (t : Fin cfg2.N) (p : Fin 1) (k : Fin 128) :
    (iblk2 V c 5 t : S1x128.Idx → Elt F .f32) (ix2 p k)
      = (V c main_arg7 : S1x128.Idx → Elt F .f32) (ix2 p k) := by
  obtain ⟨e0, e1⟩ := idx2_5 t
  unfold iblk2
  rw [View.read_apply]
  show V c main_arg7 _ = V c main_arg7 _
  congr 1
  funext a
  apply Fin.ext
  match a with
  | ⟨0, _⟩ => show win2_5.index t 0 * 1 + 1 * p.val = p.val; rw [e0]; omega
  | ⟨1, _⟩ => show win2_5.index t 1 * 128 + 1 * k.val = k.val; rw [e1]; omega

/-- Window 6's block at point `t`: rows `5000 t + p` of its array. -/
theorem iblk2_6_apply (c : Dev nD) (t : Fin cfg2.N) (p : Fin 5000) (k : Fin 1) :
    (iblk2 V c 6 t : S5000x1.Idx → Elt F .f32) (ix2 p k)
      = (V c main_v38 : S50000x1.Idx → Elt F .f32) (ix2 (rowOf (pt2 t) p) k) := by
  obtain ⟨e0, e1⟩ := idx2_6 t
  unfold iblk2
  rw [View.read_apply]
  show V c main_v38 _ = V c main_v38 _
  congr 1
  funext a
  apply Fin.ext
  match a with
  | ⟨0, _⟩ => show win2_6.index t 0 * 5000 + 1 * p.val = 5000 * t.val + p.val; rw [e0]; omega
  | ⟨1, _⟩ => show win2_6.index t 1 * 1 + 1 * k.val = k.val; rw [e1]; omega

/-- Where an entry of output window 7's block at point `t` lands in its array. -/
theorem out2_7_emb (t : Fin cfg2.N) (p : Fin 5000) (q : Fin 128) :
    ((cfg2.win 7).blk t).view.emb (ix2 p q : S5000x128.Idx) = (ix2 (rowOf (pt2 t) p) q : S50000x128.Idx) := by
  obtain ⟨e0, e1⟩ := idx2_7 t
  funext a
  apply Fin.ext
  match a with
  | ⟨0, _⟩ => show win2_7.index t 0 * 5000 + 1 * p.val = 5000 * t.val + p.val; rw [e0]; omega
  | ⟨1, _⟩ => show win2_7.index t 1 * 128 + 1 * q.val = q.val; rw [e1]; omega

/-- Output window 7's ten blocks cover its array. -/
theorem out2_7_cover (i : S50000x128.Idx) :
    ∃ t : Fin cfg2.N, (cfg2.win 7).flush t = true ∧ i ∈ ((cfg2.win 7).blk t).view.set := by
  have h0 : (i 0).val < 50000 := (i 0).isLt
  have h1 : (i 1).val < 128 := (i 1).isLt
  have hN : cfg2.N = 10 := N_2
  have hT : (i 0).val / 5000 < cfg2.N := by omega
  refine ⟨⟨(i 0).val / 5000, hT⟩, flush2_7 _, ?_⟩
  obtain ⟨e0, e1⟩ := idx2_7 ⟨(i 0).val / 5000, hT⟩
  show i ∈ ((View.whole main_v63_0).slice (win2_7.rect ⟨(i 0).val / 5000, hT⟩)).set
  rw [View.set_slice_whole, Rect.mem_set_unit]
  intro a
  match a with
  | ⟨0, _⟩ => show win2_7.index ⟨(i 0).val / 5000, hT⟩ 0 * 5000 ≤ (i 0).val ∧ (i 0).val < win2_7.index ⟨(i 0).val / 5000, hT⟩ 0 * 5000 + 5000; rw [e0]; show (i 0).val / 5000 * 5000 ≤ (i 0).val ∧ (i 0).val < (i 0).val / 5000 * 5000 + 5000; omega
  | ⟨1, _⟩ => show win2_7.index ⟨(i 0).val / 5000, hT⟩ 1 * 128 ≤ (i 1).val ∧ (i 1).val < win2_7.index ⟨(i 0).val / 5000, hT⟩ 1 * 128 + 128; rw [e1]; omega

/-- Where an entry of output window 8's block at point `t` lands in its array. -/
theorem out2_8_emb (t : Fin cfg2.N) (p : Fin 5000) (q : Fin 128) :
    ((cfg2.win 8).blk t).view.emb (ix2 p q : S5000x128.Idx) = (ix2 (rowOf (pt2 t) p) q : S50000x128.Idx) := by
  obtain ⟨e0, e1⟩ := idx2_8 t
  funext a
  apply Fin.ext
  match a with
  | ⟨0, _⟩ => show win2_8.index t 0 * 5000 + 1 * p.val = 5000 * t.val + p.val; rw [e0]; omega
  | ⟨1, _⟩ => show win2_8.index t 1 * 128 + 1 * q.val = q.val; rw [e1]; omega

/-- Output window 8's ten blocks cover its array. -/
theorem out2_8_cover (i : S50000x128.Idx) :
    ∃ t : Fin cfg2.N, (cfg2.win 8).flush t = true ∧ i ∈ ((cfg2.win 8).blk t).view.set := by
  have h0 : (i 0).val < 50000 := (i 0).isLt
  have h1 : (i 1).val < 128 := (i 1).isLt
  have hN : cfg2.N = 10 := N_2
  have hT : (i 0).val / 5000 < cfg2.N := by omega
  refine ⟨⟨(i 0).val / 5000, hT⟩, flush2_8 _, ?_⟩
  obtain ⟨e0, e1⟩ := idx2_8 ⟨(i 0).val / 5000, hT⟩
  show i ∈ ((View.whole main_v63_1).slice (win2_8.rect ⟨(i 0).val / 5000, hT⟩)).set
  rw [View.set_slice_whole, Rect.mem_set_unit]
  intro a
  match a with
  | ⟨0, _⟩ => show win2_8.index ⟨(i 0).val / 5000, hT⟩ 0 * 5000 ≤ (i 0).val ∧ (i 0).val < win2_8.index ⟨(i 0).val / 5000, hT⟩ 0 * 5000 + 5000; rw [e0]; show (i 0).val / 5000 * 5000 ≤ (i 0).val ∧ (i 0).val < (i 0).val / 5000 * 5000 + 5000; omega
  | ⟨1, _⟩ => show win2_8.index ⟨(i 0).val / 5000, hT⟩ 1 * 128 ≤ (i 1).val ∧ (i 1).val < win2_8.index ⟨(i 0).val / 5000, hT⟩ 1 * 128 + 128; rw [e1]; omega

end Cert.KernelIdeal.Gcn

end
-- ==== Proof.StagePay.lean ====
/-
  The kernel's matmul and relu/degree payloads read at one output index, at the exact instance where every float is an
  extended real. Each payload is a composition of pointwise operations, layout operations (a transpose of the weight
  block, a row broadcast, a column broadcast) and one contraction; read at `(p, q)` it is the same arithmetic on the
  operands' elements: a sum over the contraction coordinate of products, a bias added, a maximum with zero, a scaling by
  the row's degree factor. No hypothesis on the values is needed: nothing is reordered, the contraction's index set is
  only re-indexed by its single coordinate.
-/
import proofs.«138754_j56521769616160_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.ShloMosaic.ValueIdx
namespace Cert.KernelIdeal.Gcn
open Cert.KernelIdeal Cert.KernelIdeal.Gen

/-! ## A column broadcast read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions read at an index -/

/-- The left operand's row coordinate at output index `i` is the output's row. -/
theorem lhs256_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contraction coordinate. -/
theorem lhs256_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
/-- The right operand's row coordinate is the contraction coordinate. -/
theorem rhs256_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
/-- The right operand's column coordinate at output index `i` is the output's column. -/
theorem rhs256_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A `[5000, 256]` by `[256, 128]` product accumulated into the zero splat reads, at `(p, q)`, the sum over the one
    contraction coordinate `k` of the left operand at `(p, k)` times the right operand at `(k, q)`: the contraction
    index set is re-indexed by its single coordinate. -/
theorem matmul256_apply {φ₁ φ₂ : FTy} (l : FVec Ideal S5000x256 φ₁) (r : FVec Ideal S256x128 φ₂) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-- The left operand's row coordinate at output index `i` is the output's row. -/
theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction coordinate. -/
theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row coordinate is the contraction coordinate. -/
theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column coordinate at output index `i` is the output's column. -/
theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128]` by `[128, 128]` product accumulated into the zero splat reads, at `(p, q)`, the sum over the one
    contraction coordinate `k` of the left operand at `(p, k)` times the right operand at `(k, q)`: the contraction
    index set is re-indexed by its single coordinate. -/
theorem matmul128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The payloads -/

/-- The linear layer: `x0 · x1ᵀ + x2`, the weight block transposed in the kernel, the bias row broadcast over the rows. -/
theorem linear_pay (x0 : Vec Ideal S5000x256 .f32) (x1 : Vec Ideal S128x256 .f32) (x2 : Vec Ideal S1x128 .f32) (p : Fin 5000) (q : Fin 128) :
    k0_pay1 (F := Ideal) x0 x1 x2 (ix2 p q) = (∑ k : Fin 256, x0 (ix2 p k) * x1 (ix2 q k)) + x2 (ix2 (0 : Fin 1) q) := by
  unfold k0_pay1
  rw [addf_apply, matmul256_apply, shapeCast_self, broadcastTo_1b_ab_apply]
  refine congrArg (· + x2 (ix2 (0 : Fin 1) q)) (Finset.sum_congr rfl fun k _ => ?_)
  rw [truncf_apply, transpose_ix2_apply, truncf_apply]

/-- The first convolution's product: `v0 · v3ᵀ`. -/
theorem conv_pay (v0 : Vec Ideal S5000x128 .f32) (v3 : Vec Ideal S128x128 .f32) (p : Fin 5000) (q : Fin 128) :
    k1_pay2 (F := Ideal) v0 v3 (ix2 p q) = ∑ k : Fin 128, v0 (ix2 p k) * v3 (ix2 q k) := by
  unfold k1_pay2 k1_pay1
  rw [matmul128_apply]
  refine Finset.sum_congr rfl fun k _ => ?_
  rw [truncf_apply, shapeCast_self, transpose_ix2_apply, truncf_apply]

/-- The first root term: `relu (v0 + v8)` scaled by the row's degree factor. -/
theorem root_pay (v0 : Vec Ideal S5000x128 .f32) (v8 : Vec Ideal S1x128 .f32) (v13 : Vec Ideal S5000x1 .f32) (p : Fin 5000) (q : Fin 128) :
    k1_pay3 (F := Ideal) v0 v8 v13 (ix2 p q) = max (v0 (ix2 p q) + v8 (ix2 (0 : Fin 1) q)) 0 * v13 (ix2 p (0 : Fin 1)) := by
  unfold k1_pay3 k1_pay1
  rw [mulf_apply, maximumf_apply, addf_apply, shapeCast_self, broadcastTo_1b_ab_apply, broadcast_apply,
    shapeCast_self, broadcastTo_a1_ab_apply]
  show max _ (Ideal.ofBits .f32 0x00000000#32) * _ = _
  rw [Ideal.ofBits_zero_f32]

/-- The second root term: `relu (v30 + v37)` scaled by the row's degree factor. -/
theorem root_pay2 (v30 : FVec Ideal S5000x128 .f32) (v37 : Vec Ideal S1x128 .f32) (v42 : Vec Ideal S5000x1 .f32) (p : Fin 5000) (q : Fin 128) :
    k2_pay1 (F := Ideal) v30 v37 v42 (ix2 p q) = max (v30 (ix2 p q) + v37 (ix2 (0 : Fin 1) q)) 0 * v42 (ix2 p (0 : Fin 1)) := by
  unfold k2_pay1
  rw [mulf_apply, maximumf_apply, addf_apply, broadcastTo_1b_ab_apply, broadcast_apply,
    shapeCast_self, broadcastTo_a1_ab_apply]
  show max _ (Ideal.ofBits .f32 0x00000000#32) * _ = _
  rw [Ideal.ofBits_zero_f32]

/-- The second convolution's product: the normalized activations times `v32ᵀ`. -/
theorem conv_pay2 (v0 v2 : Vec Ideal S5000x128 .f32) (v21 v25 : Vec Ideal S1x128 .f32) (v32 : Vec Ideal S128x128 .f32) (p : Fin 5000) (q : Fin 128) :
    k2_pay3 (F := Ideal) v0 v2 v21 v25 v32 (ix2 p q) = ∑ k : Fin 128, k2_pay2 (F := Ideal) v0 v2 v21 v25 (ix2 p k) * v32 (ix2 q k) := by
  unfold k2_pay3
  generalize k2_pay2 (F := Ideal) v0 v2 v21 v25 = y
  rw [matmul128_apply]
  refine Finset.sum_congr rfl fun k _ => ?_
  rw [truncf_apply, transpose_ix2_apply, truncf_apply]

end Cert.KernelIdeal.Gcn
end
-- ==== Proof.NormRow.lean ====
/-
  The layer-norm stage of one row of 128 lanes, on the extended reals: the one function that both the kernel's third
  region and the reference compute at the exact instance, where every float is an extended real and every operation
  the exact one.

  For a row s (the residual sum), a scale row g and a shift row b:
      mu   = (sum_k s k) / 128
      d k  = s k - mu
      var  = (sum_k d k * d k) / 128
      y q  = max (d q * rsqrt (var + eps) * g q + b q) 0
  The divisor 128 and eps are kept as the f32 words the two programs print (0x43000000 and 0x3727C5AC): both
  programs hold the same word, so its value is never needed. The quotient is the exact instance's division and the
  reciprocal square root its own function, corners included, so no finiteness of the row is assumed anywhere.
-/
import Idealize.ShloMosaic.PureOps.Ideal

noncomputable section

open scoped BigOperators
open Idealize.ShloMosaic

namespace Cert.Gcn

/-- The normalised, scaled, shifted and rectified row of `s`, with scale `g` and shift `b`: at lane `q`,
    `max ((s q - mu) * rsqrt (var + eps) * g q + b q) 0` with `mu` the row's mean and `var` the mean of the squared
    deviations, each a sum over the 128 lanes divided by the word of 128. Written out in full (no local
    definitions), in the order of operations both programs perform. -/
def normRow (s g b : Fin 128 → EReal) : Fin 128 → EReal := fun q =>
  max ((s q - Ideal.div (∑ k : Fin 128, s k) (Ideal.ofBits .f32 0x43000000#32))
        * Ideal.rsqrt
            (Ideal.div
                (∑ k : Fin 128,
                  (s k - Ideal.div (∑ k' : Fin 128, s k') (Ideal.ofBits .f32 0x43000000#32))
                    * (s k - Ideal.div (∑ k' : Fin 128, s k') (Ideal.ofBits .f32 0x43000000#32)))
                (Ideal.ofBits .f32 0x43000000#32)
              + Ideal.ofBits .f32 0x3727C5AC#32)
        * g q
      + b q) 0

end Cert.Gcn

end
-- ==== Proof.NormKernel.lean ====
/-
  The kernel's third region read at one element: the payload that normalises a row of 128 lanes is, at row p and
  lane q, the row function `Cert.Gcn.normRow` of the residual sum's row p, the scale row and the shift row.

  Every step is the reading of one operation at an index: the elementwise ones read through by definition, a lane
  reduction is the finite sum over the lanes, the keep-dimension column [a] -> [a, 1] -> [a, b] reads the row's one
  value, and the row broadcast [1, b] -> [a, b] reads the lane's one value. No property of the values is used.
-/
import proofs.«138754_j56521769616160_1_alg».proof.Proof.Gen.KernelIdeal.Skeleton
import proofs.«138754_j56521769616160_1_alg».proof.Proof.NormRow
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Gcn

open Cert.KernelIdeal Cert.KernelIdeal.Gen

namespace Norm

/-! ## The keep-dimension column forms, read at an index -/

/-- An `[a]` array cast to `[a, 1]` reads, at `(i, u)`, the operand at `i`, whatever the unit coordinate `u`:
    both indices have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one value of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum, and the reciprocal square root, read at an index -/

/-- The sum over the 128 lanes of a `[5000, 128]` array, read at row `r`: the finite sum of the row's elements.
    (The accumulator's hypothesis is typed as the printed operation carries it, an equation between two
    spellings of the zero word.) -/
theorem lane_sum (src : FVec Ideal S5000x128 .f32) (h : S5000x128.Reduces [1] S5000) (hφ : FKind.Formats .f32)
    (hacc : (0x00000000#32 : BitVec 32) = 0x00000000#32) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- The reciprocal square root of a vector reads, at an index, the exact instance's function of the element. -/
theorem rsqrt_apply {s : Shape} {φ : FTy} (a : FVec Ideal s φ) (i : s.Idx) : rsqrt a i = Ideal.rsqrt (a i) := rfl

/-- A scalar constant at the exact instance is the extended real its word denotes. -/
theorem scalar_ofBits (φ : FTy) (b : BitVec φ.bits) : Scalar.ofBits (F := Ideal) φ b = Ideal.ofBits φ b := rfl

end Norm

/-! ## The payload at one element -/

/-- The third region's normalising payload at row `p`, lane `q`, is the row function of the residual sum's row
    `p`, the scale row and the shift row: each operation is read at its index, outermost first, and what is left
    is the row function's own expression (the zero splat of the rectifier denotes `0`). -/
theorem norm_pay (v0 v2 : Vec Ideal S5000x128 .f32) (v21 v25 : Vec Ideal S1x128 .f32) (p : Fin 5000) (q : Fin 128) :
    k2_pay2 (F := Ideal) v0 v2 v21 v25 (ix2 p q)
      = Cert.Gcn.normRow (fun k => v0 (ix2 p k) + v2 (ix2 p k)) (fun k => v21 (ix2 (0 : Fin 1) k))
          (fun k => v25 (ix2 (0 : Fin 1) k)) q := by
  -- the lane sum in the spelling the payload prints it: the format and accumulator witnesses are closed terms
  have hs : ∀ (h : S5000x128.Reduces [1] S5000) (src : FVec Ideal S5000x128 .f32) (r : Fin 5000),
      multiReduction .add [1] S5000 src 0x00000000#32 h (.inl rfl) rfl (ix1 r) = ∑ k : Fin 128, src (ix2 r k) :=
    fun h src r => Norm.lane_sum src h _ _ r
  unfold k2_pay2
  simp only [shapeCast_self, maximumf_apply, addf_apply, mulf_apply, subf_apply, divf_apply, broadcast_apply,
    Norm.rsqrt_apply, broadcastTo_1b_ab_apply, Norm.broadcastTo_a1_ab_apply, Norm.shapeCast_a_a1_apply, hs,
    Norm.scalar_ofBits,
    Ideal.ofBits_zero_f32, Cert.Gcn.normRow]

end Cert.KernelIdeal.Gcn

end
-- ==== Proof.GcnArrays.lean ====
/-
  What each region leaves in its output arrays, as ONE function of the arrays it finds, at the exact instance.
  A region's body stores, at grid point `t`, a block computed from the point's input blocks; the blocks are rows
  `5000 t …` of their arrays (or whole weight and bias arrays), so entry `(p, q)` of the stored block is the body's
  arithmetic on row `5000 t + p` of the inputs, and the ten stored blocks cover the output array.  Hence:
    the projection's array is   Σ_k x(i,k) · w(q,k) + b(q);
    a propagation stage's first array is   Σ_k h(i,k) · wc(q,k)   and its second   max(h(i,q) + root(q), 0) · dinv(i),
  where for the first stage `h` is the array it reads and for the second `h` is the normalised, scaled, shifted and
  rectified row of (x + residual).  Each statement names the arrays the region finds (as typed arrays, with the equation
  to the region's entry contents) and takes the output's function `G` with the fact that `G` has that form at every
  index; which function that is (the reference's stage) is settled where the two programs meet.
-/
import proofs.«138754_j56521769616160_1_alg».proof.Proof.GcnTiles
import proofs.«138754_j56521769616160_1_alg».proof.Proof.StagePay
import proofs.«138754_j56521769616160_1_alg».proof.Proof.NormKernel

set_option maxRecDepth 16384

noncomputable section

namespace Cert.KernelIdeal.Gcn

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- An index of a two-axis shape is its two coordinates. -/
theorem split2 {A B : Nat} (y : (⟨2, ![A, B]⟩ : Shape).Idx) : ∃ (p : Fin A) (q : Fin B), y = ix2 p q := ⟨y 0, y 1, eq_ix2 y⟩

/-! ## The input projection -/

/-- The projection's output array: every row of the input against every row of the weight, plus the bias. -/
theorem linear_array (c : Dev nD) (X : Vec Ideal S50000x256 .f32) (W : Vec Ideal S128x256 .f32) (b : Vec Ideal S1x128 .f32)
    (hX : V c main_arg0 = X) (hW : V c main_arg3 = W) (hb : V c main_v0 = b) (G : Vec Ideal S50000x128 .f32)
    (hG : ∀ (i : Fin 50000) (q : Fin 128), G (ix2 i q) = (∑ k : Fin 256, X (ix2 i k) * W (ix2 q k)) + b (ix2 (0 : Fin 1) q)) :
    (dat0 V c).arrAt 3 cfg0.N = G := by
  refine (dat0 V c).arrAt_eq_of_cover 3 G (fun t _ => ?_) out0_3_cover
  show (cfg0.win 3).cut (grid0.coords t) ((dat0 V c).after 3 t) = _
  rw [after0_3]
  unfold out0_3
  rw [View.canon_unit_zero hz]
  simp only [View.ld_unit_zero (S := S5000x256) hz, View.ld_unit_zero (S := S128x256) hz, View.ld_unit_zero (S := S1x128) hz]
  funext y
  obtain ⟨p, q, rfl⟩ := split2 y
  show k0_pay1 (F := Ideal) (iblk0 V c 0 t) (iblk0 V c 1 t) (iblk0 V c 2 t) (ix2 p q) = G (((cfg0.win 3).blk t).view.emb (ix2 p q))
  rw [out0_3_emb, hG]
  refine (linear_pay _ _ _ p q).trans ?_
  simp only [iblk0_0_apply, iblk0_1_apply, iblk0_2_apply]
  rw [hX, hW, hb]

/-! ## The first propagation stage -/

/-- Its first output: the rows it reads against the rows of the convolution weight. -/
theorem conv_array (c : Dev nD) (H : Vec Ideal S50000x128 .f32) (Wc : Vec Ideal S128x128 .f32)
    (hH : V c main_v1 = H) (hWc : V c main_arg5 = Wc) (G : Vec Ideal S50000x128 .f32)
    (hG : ∀ (i : Fin 50000) (q : Fin 128), G (ix2 i q) = ∑ k : Fin 128, H (ix2 i k) * Wc (ix2 q k)) :
    (dat1 V c).arrAt 4 cfg1.N = G := by
  refine (dat1 V c).arrAt_eq_of_cover 4 G (fun t _ => ?_) out1_4_cover
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  funext y
  obtain ⟨p, q, rfl⟩ := split2 y
  show k1_pay2 (F := Ideal) (iblk1 V c 0 t) (iblk1 V c 1 t) (ix2 p q) = G (((cfg1.win 4).blk t).view.emb (ix2 p q))
  rw [out1_4_emb, hG]
  refine (conv_pay _ _ p q).trans ?_
  simp only [iblk1_0_apply, iblk1_1_apply]
  rw [hH, hWc]

/-- Its second output: the rectified sum with the root embedding, scaled by the inverse degree of the row. -/
theorem root_array (c : Dev nD) (H : Vec Ideal S50000x128 .f32) (root : Vec Ideal S1x128 .f32) (dcol : Vec Ideal S50000x1 .f32)
    (hH : V c main_v1 = H) (hroot : V c main_arg7 = root) (hd : V c main_v38 = dcol) (G : Vec Ideal S50000x128 .f32)
    (hG : ∀ (i : Fin 50000) (q : Fin 128), G (ix2 i q)
      = max (H (ix2 i q) + root (ix2 (0 : Fin 1) q)) 0 * dcol (ix2 i (0 : Fin 1))) :
    (dat1 V c).arrAt 5 cfg1.N = G := by
  refine (dat1 V c).arrAt_eq_of_cover 5 G (fun t _ => ?_) out1_5_cover
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S5000x1) hz]
  funext y
  obtain ⟨p, q, rfl⟩ := split2 y
  show k1_pay3 (F := Ideal) (iblk1 V c 0 t) (iblk1 V c 2 t) (iblk1 V c 3 t) (ix2 p q) = G (((cfg1.win 5).blk t).view.emb (ix2 p q))
  rw [out1_5_emb, hG]
  refine (root_pay _ _ _ p q).trans ?_
  simp only [iblk1_0_apply, iblk1_2_apply, iblk1_3_apply]
  rw [hH, hroot, hd]

/-! ## The second propagation stage -/

/-- The row the second stage works on: row `i` of (its input + the residual), normalised, scaled by the row of
    scales, shifted by the row of shifts and rectified. -/
def stageRow (X H : Vec Ideal S50000x128 .f32) (g b : Vec Ideal S1x128 .f32) (i : Fin 50000) : Fin 128 → EReal :=
  Cert.Gcn.normRow (fun k => X (ix2 i k) + H (ix2 i k)) (fun k => g (ix2 (0 : Fin 1) k)) (fun k => b (ix2 (0 : Fin 1) k))

/-- The layer-norm payload on the blocks of point `t` is the stage's row `5000 t + p`. -/
theorem norm_block (c : Dev nD) (X H : Vec Ideal S50000x128 .f32) (g b : Vec Ideal S1x128 .f32)
    (hX : V c main_v56 = X) (hH : V c main_v1 = H) (hg : V c main_v59 = g) (hb : V c main_v62 = b)
    (t : Fin cfg2.N) (p : Fin 5000) (k : Fin 128) :
    k2_pay2 (F := Ideal) (iblk2 V c 0 t) (iblk2 V c 1 t) (iblk2 V c 2 t) (iblk2 V c 3 t) (ix2 p k)
      = stageRow X H g b (rowOf (pt2 t) p) k := by
  refine (norm_pay _ _ _ _ p k).trans ?_
  unfold stageRow
  simp only [iblk2_0_apply, iblk2_1_apply, iblk2_2_apply, iblk2_3_apply]
  rw [hX, hH, hg, hb]

/-- Its first output: the stage's rows against the rows of the convolution weight. -/
theorem conv_array2 (c : Dev nD) (X H : Vec Ideal S50000x128 .f32) (g b : Vec Ideal S1x128 .f32) (Wc : Vec Ideal S128x128 .f32)
    (hX : V c main_v56 = X) (hH : V c main_v1 = H) (hg : V c main_v59 = g) (hb : V c main_v62 = b) (hWc : V c main_arg5 = Wc)
    (G : Vec Ideal S50000x128 .f32)
    (hG : ∀ (i : Fin 50000) (q : Fin 128), G (ix2 i q) = ∑ k : Fin 128, stageRow X H g b i k * Wc (ix2 q k)) :
    (dat2 V c).arrAt 7 cfg2.N = G := by
  refine (dat2 V c).arrAt_eq_of_cover 7 G (fun t _ => ?_) out2_7_cover
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz, View.ld_unit_zero (S := S128x128) hz]
  funext y
  obtain ⟨p, q, rfl⟩ := split2 y
  show k2_pay3 (F := Ideal) (iblk2 V c 0 t) (iblk2 V c 1 t) (iblk2 V c 2 t) (iblk2 V c 3 t) (iblk2 V c 4 t) (ix2 p q)
    = G (((cfg2.win 7).blk t).view.emb (ix2 p q))
  rw [out2_7_emb, hG]
  refine (conv_pay2 _ _ _ _ _ p q).trans ?_
  refine Finset.sum_congr rfl fun k _ => ?_
  rw [norm_block V c X H g b hX hH hg hb t p k, iblk2_4_apply, hWc]

/-- Its second output: the stage's row plus the root embedding, rectified, scaled by the inverse degree of the row. -/
theorem root_array2 (c : Dev nD) (X H : Vec Ideal S50000x128 .f32) (g b : Vec Ideal S1x128 .f32) (root : Vec Ideal S1x128 .f32)
    (dcol : Vec Ideal S50000x1 .f32)
    (hX : V c main_v56 = X) (hH : V c main_v1 = H) (hg : V c main_v59 = g) (hb : V c main_v62 = b) (hroot : V c main_arg7 = root)
    (hd : V c main_v38 = dcol) (G : Vec Ideal S50000x128 .f32)
    (hG : ∀ (i : Fin 50000) (q : Fin 128), G (ix2 i q)
      = max (stageRow X H g b i q + root (ix2 (0 : Fin 1) q)) 0 * dcol (ix2 i (0 : Fin 1))) :
    (dat2 V c).arrAt 8 cfg2.N = G := by
  refine (dat2 V c).arrAt_eq_of_cover 8 G (fun t _ => ?_) out2_8_cover
  show (cfg2.win 8).cut (grid2.coords t) ((dat2 V c).after 8 t) = _
  rw [after2_8]
  unfold out2_8
  rw [View.canon_unit_zero hz]
  simp only [View.ld_unit_zero (S := S5000x128) hz, View.ld_unit_zero (S := S1x128) hz, View.ld_unit_zero (S := S5000x1) hz]
  funext y
  obtain ⟨p, q, rfl⟩ := split2 y
  show k2_pay1 (F := Ideal) (k2_pay2 (F := Ideal) (iblk2 V c 0 t) (iblk2 V c 1 t) (iblk2 V c 2 t) (iblk2 V c 3 t)) (iblk2 V c 5 t) (iblk2 V c 6 t) (ix2 p q)
    = G (((cfg2.win 8).blk t).view.emb (ix2 p q))
  rw [out2_8_emb, hG]
  refine (root_pay2 _ _ _ p q).trans ?_
  rw [norm_block V c X H g b hX hH hg hb t p q, iblk2_5_apply, iblk2_6_apply, hroot, hd]

end Cert.KernelIdeal.Gcn

end
-- ==== Proof.StageRef.lean ====
/-
  The reference's matmul and relu/degree values read at one output index, at the exact instance where every float is an
  extended real. Each is a chain of host operations (a transpose, a contraction, broadcasts of a bias row and of the degree
  column, a maximum with zero, a product); read at `(i, q)` the chain is the same arithmetic on the operands' elements,
  with the composed index maps of the layout operations identified with indices written by their coordinates. No
  hypothesis on the values is needed.
-/
import proofs.«138754_j56521769616160_1_alg».proof.Proof.RefReadP
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.ShloMosaic.ValueIdx
namespace Cert.ReferenceIdeal.Gcn
open Cert.ReferenceIdeal Cert.ReferenceIdeal.Gen Cert.ReferenceIdeal.ReadP

/-- The linear layer: `x0 · x3ᵀ + x4`, the bias broadcast over the rows. -/
theorem linear_ref (x0 : (⟨S50000x256, .f32⟩ : BufTy).Contents (Elt Ideal)) (x3 : (⟨S128x256, .f32⟩ : BufTy).Contents (Elt Ideal)) (x4 : (⟨S128, .f32⟩ : BufTy).Contents (Elt Ideal)) (i : Fin 50000) (q : Fin 128) :
    val_main_v4 (F := Ideal) x0 x3 x4 (ix2 i q) = (∑ k : Fin 256, x0 (ix2 i k) * x3 (ix2 q k)) + x4 (ix1 q) := by
  rw [val_main_v4_apply, val_main_v1_apply, val_main_v3_apply, val_main_v2_apply]
  have eb : idx_main_v2 (idx_main_v3 (ix2 i q)) = ix1 q := funext fun a => Fin.ext (by match a with | ⟨0, _⟩ => rfl)
  rw [eb]
  show (∑ k : Fin 256, _) + _ = _
  refine congrArg (· + x4 (ix1 q)) (Finset.sum_congr rfl fun k _ => ?_)
  rw [val_main_v0_apply]
  have el : lidx_main_v1 (ix2 i q) k = ix2 i k := funext fun a => Fin.ext (by match a with | ⟨0, _⟩ => rfl | ⟨1, _⟩ => rfl)
  have er : idx_main_v0 (ridx_main_v1 (ix2 i q) k) = ix2 q k := funext fun a => Fin.ext (by match a with | ⟨0, _⟩ => rfl | ⟨1, _⟩ => rfl)
  rw [el, er]

/-- The first convolution's product: the linear layer's output times `x5ᵀ`. -/
theorem conv_ref (x0 : (⟨S50000x256, .f32⟩ : BufTy).Contents (Elt Ideal)) (x3 : (⟨S128x256, .f32⟩ : BufTy).Contents (Elt Ideal)) (x4 : (⟨S128, .f32⟩ : BufTy).Contents (Elt Ideal)) (x5 : (⟨S128x128, .f32⟩ : BufTy).Contents (Elt Ideal)) (i : Fin 50000) (q : Fin 128) :
    val_main_v43 (F := Ideal) x0 x3 x4 x5 (ix2 i q) = ∑ k : Fin 128, val_main_v4 (F := Ideal) x0 x3 x4 (ix2 i k) * x5 (ix2 q k) := by
  rw [val_main_v43_apply]
  refine Finset.sum_congr rfl fun k _ => ?_
  rw [val_main_v42_apply]
  have el : lidx_main_v43 (ix2 i q) k = ix2 i k := funext fun a => Fin.ext (by match a with | ⟨0, _⟩ => rfl | ⟨1, _⟩ => rfl)
  have er : idx_main_v42 (ridx_main_v43 (ix2 i q) k) = ix2 q k := funext fun a => Fin.ext (by match a with | ⟨0, _⟩ => rfl | ⟨1, _⟩ => rfl)
  rw [el, er]

/-- The first root term: `relu` of the linear layer's output plus the root bias, scaled by the row's degree factor. -/
theorem root_ref (x0 : (⟨S50000x256, .f32⟩ : BufTy).Contents (Elt Ideal)) (x1 : (⟨S600000, .i32⟩ : BufTy).Contents (Elt Ideal)) (x3 : (⟨S128x256, .f32⟩ : BufTy).Contents (Elt Ideal)) (x4 : (⟨S128, .f32⟩ : BufTy).Contents (Elt Ideal)) (x7 : (⟨S1x128, .f32⟩ : BufTy).Contents (Elt Ideal)) (i : Fin 50000) (q : Fin 128) :
    val_main_v66 (F := Ideal) x0 x1 x3 x4 x7 (ix2 i q) = max (val_main_v4 (F := Ideal) x0 x3 x4 (ix2 i q) + x7 (ix2 (0 : Fin 1) q)) 0 * val_main_v12 (F := Ideal) x1 (ix1 i) := by
  rw [val_main_v66_apply, val_main_v63_apply, val_main_v62_apply, val_main_v61_apply, val_main_v60_apply, val_main_v41_apply,
    val_main_call1_v0_apply, val_main_call1_cst_apply, val_main_v65_apply, val_main_v64_apply]
  have eb : idx_main_v41 (idx_main_v60 (idx_main_v61 (ix2 i q))) = ix2 (0 : Fin 1) q := funext fun a => Fin.ext (by
    match a with
    | ⟨0, _⟩ => rfl
    | ⟨1, _⟩ => exact Nat.mod_eq_of_lt q.isLt)
  have ed : idx_main_v64 (idx_main_v65 (ix2 i q)) = ix1 i := funext fun a => Fin.ext (by match a with | ⟨0, _⟩ => rfl)
  rw [eb, ed]
  show max (_ + _) (Ideal.ofBits .f32 0x00000000#32) * _ = _
  rw [Ideal.ofBits_zero_f32]

/-- The second convolution's product: the normalized activations times `x5ᵀ`. -/
theorem conv_ref2 (x0 : (⟨S50000x256, .f32⟩ : BufTy).Contents (Elt Ideal)) (x1 x2 : (⟨S600000, .i32⟩ : BufTy).Contents (Elt Ideal)) (x3 : (⟨S128x256, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 x9 : (⟨S2x128, .f32⟩ : BufTy).Contents (Elt Ideal)) (i : Fin 50000) (q : Fin 128) :
    val_main_v99 (F := Ideal) x0 x1 x2 x3 x4 x5 x6 x7 x8 x9 (ix2 i q) = ∑ k : Fin 128, val_main_v97 (F := Ideal) x0 x1 x2 x3 x4 x5 x6 x7 x8 x9 (ix2 i k) * x5 (ix2 q k) := by
  rw [val_main_v99_apply]
  refine Finset.sum_congr rfl fun k _ => ?_
  rw [val_main_v98_apply]
  have el : lidx_main_v99 (ix2 i q) k = ix2 i k := funext fun a => Fin.ext (by match a with | ⟨0, _⟩ => rfl | ⟨1, _⟩ => rfl)
  have er : idx_main_v98 (ridx_main_v99 (ix2 i q) k) = ix2 q k := funext fun a => Fin.ext (by match a with | ⟨0, _⟩ => rfl | ⟨1, _⟩ => rfl)
  rw [el, er]

/-- The second root term: `relu` of the normalized activations plus the root bias, scaled by the row's degree factor. -/
theorem root_ref2 (x0 : (⟨S50000x256, .f32⟩ : BufTy).Contents (Elt Ideal)) (x1 x2 : (⟨S600000, .i32⟩ : BufTy).Contents (Elt Ideal)) (x3 : (⟨S128x256, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 x9 : (⟨S2x128, .f32⟩ : BufTy).Contents (Elt Ideal)) (i : Fin 50000) (q : Fin 128) :
    val_main_v122 (F := Ideal) x0 x1 x2 x3 x4 x5 x6 x7 x8 x9 (ix2 i q) = max (val_main_v97 (F := Ideal) x0 x1 x2 x3 x4 x5 x6 x7 x8 x9 (ix2 i q) + x7 (ix2 (0 : Fin 1) q)) 0 * val_main_v12 (F := Ideal) x1 (ix1 i) := by
  rw [val_main_v122_apply, val_main_v119_apply, val_main_v118_apply, val_main_v117_apply, val_main_v116_apply, val_main_v41_apply,
    val_main_call3_v0_apply, val_main_call3_cst_apply, val_main_v121_apply, val_main_v120_apply]
  have eb : idx_main_v41 (idx_main_v116 (idx_main_v117 (ix2 i q))) = ix2 (0 : Fin 1) q := funext fun a => Fin.ext (by
    match a with
    | ⟨0, _⟩ => rfl
    | ⟨1, _⟩ => exact Nat.mod_eq_of_lt q.isLt)
  have ed : idx_main_v120 (idx_main_v121 (ix2 i q)) = ix1 i := funext fun a => Fin.ext (by match a with | ⟨0, _⟩ => rfl)
  rw [eb, ed]
  show max (_ + _) (Ideal.ofBits .f32 0x00000000#32) * _ = _
  rw [Ideal.ofBits_zero_f32]

end Cert.ReferenceIdeal.Gcn
end
-- ==== Proof.NormRef.lean ====
/-
  The reference's layer-norm stage read at one element: the reference's value after the rectifier is, at row i and
  lane q, the row function `Cert.Gcn.normRow` of the residual sum's row i, row 1 of the scale table and row 1 of the
  shift table.

  The generated module reads each operation of the reference at an index from its operands at an index; a layout
  operation reads its operand at an index computed from the literal shapes. Here those computed indices are
  identified with indices written by coordinates, and the chain of readings is followed from the rectifier down to
  the residual sum, whose two summands stay unopened. A host sum is its initial value, the zero word, plus the finite
  sum over the lanes. No property of the values is used.
-/
import proofs.«138754_j56521769616160_1_alg».proof.Proof.RefReadP
import proofs.«138754_j56521769616160_1_alg».proof.Proof.NormRow
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.ReferenceIdeal.Gcn

open Cert.ReferenceIdeal Cert.ReferenceIdeal.Gen Cert.ReferenceIdeal.ReadP

namespace Norm

/-! ## The computed indices of the layout operations, written by coordinates -/

/-- A row broadcast `[1, 128] → [50000, 128]` reads lane `q` of the one row (the shift, then the scale). -/
theorem idx95 (i : Fin 50000) (q : Fin 128) : idx_main_v95 (ix2 i q) = ix2 (0 : Fin 1) q := (funext fun a => Fin.ext (by match a with | ⟨0, _⟩ => rfl | ⟨1, _⟩ => rfl))
theorem idx92 (i : Fin 50000) (q : Fin 128) : idx_main_v92 (ix2 i q) = ix2 (0 : Fin 1) q := (funext fun a => Fin.ext (by match a with | ⟨0, _⟩ => rfl | ⟨1, _⟩ => rfl))
/-- The leading unit axis added to a row of 128 reads the row's lane. -/
theorem idx94 (u : Fin 1) (q : Fin 128) : idx_main_v94 (ix2 u q) = ix1 q := (funext fun a => Fin.ext (by match a with | ⟨0, _⟩ => rfl))
theorem idx91 (u : Fin 1) (q : Fin 128) : idx_main_v91 (ix2 u q) = ix1 q := (funext fun a => Fin.ext (by match a with | ⟨0, _⟩ => rfl))
/-- The reshape `[1, 128] → [128]` reads, at lane `q`, the one row's lane `q` (`q % 128 = q`). -/
theorem idx72 (q : Fin 128) : idx_main_v72 (ix1 q) = ix2 (0 : Fin 1) q :=
  funext fun a => Fin.ext (by
    match a with
    | ⟨0, _⟩ => rfl
    | ⟨1, _⟩ => exact Nat.mod_eq_of_lt q.isLt)
theorem idx70 (q : Fin 128) : idx_main_v70 (ix1 q) = ix2 (0 : Fin 1) q :=
  funext fun a => Fin.ext (by
    match a with
    | ⟨0, _⟩ => rfl
    | ⟨1, _⟩ => exact Nat.mod_eq_of_lt q.isLt)
/-- The slice of rows `1:2` of a `[2, 128]` table reads row 1. -/
theorem idx71 (q : Fin 128) : idx_main_v71 (ix2 (0 : Fin 1) q) = ix2 (1 : Fin 2) q := (funext fun a => Fin.ext (by match a with | ⟨0, _⟩ => rfl | ⟨1, _⟩ => rfl))
theorem idx69 (q : Fin 128) : idx_main_v69 (ix2 (0 : Fin 1) q) = ix2 (1 : Fin 2) q := (funext fun a => Fin.ext (by match a with | ⟨0, _⟩ => rfl | ⟨1, _⟩ => rfl))
/-- A keep-dimension column `[50000, 1] → [50000, 128]` reads the row's one value (the mean, twice, and the
    reciprocal root). -/
theorem idx89 (i : Fin 50000) (q : Fin 128) : idx_main_v89 (ix2 i q) = ix2 i (0 : Fin 1) := (funext fun a => Fin.ext (by match a with | ⟨0, _⟩ => rfl | ⟨1, _⟩ => rfl))
theorem idx84 (i : Fin 50000) (q : Fin 128) : idx_main_v84 (ix2 i q) = ix2 i (0 : Fin 1) := (funext fun a => Fin.ext (by match a with | ⟨0, _⟩ => rfl | ⟨1, _⟩ => rfl))
theorem idx77 (i : Fin 50000) (q : Fin 128) : idx_main_v77 (ix2 i q) = ix2 i (0 : Fin 1) := (funext fun a => Fin.ext (by match a with | ⟨0, _⟩ => rfl | ⟨1, _⟩ => rfl))
/-- The trailing unit axis added to a column of row values reads the row's value. -/
theorem idx81 (i : Fin 50000) (u : Fin 1) : idx_main_v81 (ix2 i u) = ix1 i := (funext fun a => Fin.ext (by match a with | ⟨0, _⟩ => rfl))
theorem idx74 (i : Fin 50000) (u : Fin 1) : idx_main_v74 (ix2 i u) = ix1 i := (funext fun a => Fin.ext (by match a with | ⟨0, _⟩ => rfl))
/-- The summand of a row's lane sum at lane `k` is the element `(i, k)`. -/
theorem idx80 (i : Fin 50000) (k : Fin 128) : idx_main_v80 (ix1 i) k = ix2 i k := (funext fun a => Fin.ext (by match a with | ⟨0, _⟩ => rfl | ⟨1, _⟩ => rfl))
theorem idx73 (i : Fin 50000) (k : Fin 128) : idx_main_v73 (ix1 i) k = ix2 i k := (funext fun a => Fin.ext (by match a with | ⟨0, _⟩ => rfl | ⟨1, _⟩ => rfl))

end Norm

/-! ## The reference's value at one element -/

/-- The reference's value after the rectifier at row `i`, lane `q`, is the row function of the residual sum's row
    `i` (the two summands unopened), row 1 of the scale table and row 1 of the shift table: the generated readings are
    followed outermost first down to the residual sum, the computed indices are the coordinate forms above, each
    host sum's initial value is the zero word, and what is left is the row function's own expression. -/
theorem norm_ref (x0 : (⟨S50000x256, .f32⟩ : BufTy).Contents (Elt Ideal)) (x1 x2 : (⟨S600000, .i32⟩ : BufTy).Contents (Elt Ideal))
    (x3 : (⟨S128x256, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S1x128, .f32⟩ : BufTy).Contents (Elt Ideal)) (x8 x9 : (⟨S2x128, .f32⟩ : BufTy).Contents (Elt Ideal))
    (i : Fin 50000) (q : Fin 128) :
    val_main_v97 (F := Ideal) x0 x1 x2 x3 x4 x5 x6 x7 x8 x9 (ix2 i q)
      = Cert.Gcn.normRow
          (fun k => val_main_v67 (F := Ideal) x0 x1 x2 x3 x4 x5 x6 x7 (ix2 i k) + val_main_v4 (F := Ideal) x0 x3 x4 (ix2 i k))
          (fun k => x8 (ix2 (1 : Fin 2) k)) (fun k => x9 (ix2 (1 : Fin 2) k)) q := by
  simp only [val_main_v97_apply, val_main_v96_apply, val_main_v95_apply, val_main_v94_apply, val_main_v93_apply,
    val_main_v92_apply, val_main_v91_apply, val_main_v90_apply, val_main_v89_apply, val_main_v88_apply,
    val_main_v87_apply, val_main_v86_apply, val_main_v85_apply, val_main_v84_apply, val_main_v83_apply,
    val_main_v82_apply, val_main_v81_apply, val_main_v80_apply, val_main_v79_apply, val_main_v78_apply,
    val_main_v77_apply, val_main_v76_apply, val_main_v75_apply, val_main_v74_apply, val_main_v73_apply,
    val_main_v72_apply, val_main_v71_apply, val_main_v70_apply, val_main_v69_apply, val_main_v68_apply,
    val_main_call2_v0_apply, val_main_call2_cst_apply, val_main_cst_14_apply, val_main_cst_15_apply,
    val_main_cst_16_apply, val_main_cst_17_apply, val_main_cst_18_apply,
    Norm.idx95, Norm.idx94, Norm.idx92, Norm.idx91, Norm.idx89, Norm.idx84, Norm.idx81, Norm.idx80, Norm.idx77, Norm.idx74,
    Norm.idx73, Norm.idx72, Norm.idx71, Norm.idx70, Norm.idx69,
    Ideal.maximumf_def, Ideal.addf_def, Ideal.subf_def, Ideal.mulf_def, Ideal.hostDivf_def,
    Ideal.hostUnary_rsqrt_def, Ideal.ofBits_def, Ideal.ofBits_zero_f32, zero_add,
    Cert.Gcn.normRow]

end Cert.ReferenceIdeal.Gcn

end
-- ==== Proof.GcnValue.lean ====
/-
  Where the two programs meet.  The reference computes, from the ten arguments, a chain of stages: the projection
  h = x·wᵀ + b; the degrees, the edge list with self loops and the edge weights; the first stage's transformed features
  h·wcᵀ and root term max(h + root, 0)·dinv; the first propagation step; the normalised, scaled, shifted and rectified
  rows of (step + h); the second stage's transformed features and root term; the second propagation step, which is the
  result.  The kernel's run passes through the same values: each region's output array is the reference's stage at
  the kernel's launch values (the region computes, block by block, exactly that stage's entries), and each host stretch
  carries the reference's stages forward with the reference's own operations.  Followed boundary by boundary, the
  kernel's result buffer ends holding the reference's result stage of the kernel's arguments.
-/
import proofs.«138754_j56521769616160_1_alg».proof.Proof.GcnRun
import proofs.«138754_j56521769616160_1_alg».proof.Proof.GcnGraph
import proofs.«138754_j56521769616160_1_alg».proof.Proof.GcnArrays
import proofs.«138754_j56521769616160_1_alg».proof.Proof.StageRef
import proofs.«138754_j56521769616160_1_alg».proof.Proof.NormRef

set_option maxRecDepth 16384

noncomputable section

namespace Cert.KernelIdeal.Gcn

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.ReadP

variable (m : (ℓ : Loc nD τ sig) → Buf (Elt Ideal) ℓ) (ρ : Dev nD → PrngReg)

/-! ## The reference's stages at the kernel's launch values -/

/-- The projection. -/
abbrev rH (c : Dev nD) := val_main_v4 (F := Ideal) (m ((c : Thread nD τ).loc main_arg0)) (m ((c : Thread nD τ).loc main_arg3)) (m ((c : Thread nD τ).loc main_arg4))
/-- The inverse degrees. -/
abbrev rDinv (c : Dev nD) := val_main_v12 (F := Ideal) (m ((c : Thread nD τ).loc main_arg1))
/-- The first stage's transformed features and root term, and the first propagation step. -/
abbrev rXw0 (c : Dev nD) := val_main_v43 (F := Ideal) (m ((c : Thread nD τ).loc main_arg0)) (m ((c : Thread nD τ).loc main_arg3)) (m ((c : Thread nD τ).loc main_arg4)) (m ((c : Thread nD τ).loc main_arg5))
abbrev rRc0 (c : Dev nD) := val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg7))
abbrev rStep (c : Dev nD) := val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- The second stage's transformed features and root term, and the result. -/
abbrev rXw1 (c : Dev nD) := val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev rRc1 (c : Dev nD) := val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev rOut (c : Dev nD) := val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The arguments where the regions and stretches read them -/

theorem arg1_in (c : Dev nD) : W2 m ρ c (Proc.devRef .tc main_arg1) = (m ((c : Thread nD τ).loc main_arg1)) := (arg1_at2 m ρ c).trans (W0_eq m ρ c main_arg1)
theorem arg2_in (c : Dev nD) : W2 m ρ c (Proc.devRef .tc main_arg2) = (m ((c : Thread nD τ).loc main_arg2)) := (arg2_at2 m ρ c).trans (W0_eq m ρ c main_arg2)
theorem arg6_in6 (c : Dev nD) : W6 m ρ c (Proc.devRef .tc main_arg6) = (m ((c : Thread nD τ).loc main_arg6)) := (arg6_at6 m ρ c).trans (W0_eq m ρ c main_arg6)
theorem arg6_in8 (c : Dev nD) : W8 m ρ c (Proc.devRef .tc main_arg6) = (m ((c : Thread nD τ).loc main_arg6)) := (arg6_at8 m ρ c).trans (W0_eq m ρ c main_arg6)
theorem arg8_in6 (c : Dev nD) : W6 m ρ c (Proc.devRef .tc main_arg8) = (m ((c : Thread nD τ).loc main_arg8)) := (arg8_at6 m ρ c).trans (W0_eq m ρ c main_arg8)
theorem arg9_in6 (c : Dev nD) : W6 m ρ c (Proc.devRef .tc main_arg9) = (m ((c : Thread nD τ).loc main_arg9)) := (arg9_at6 m ρ c).trans (W0_eq m ρ c main_arg9)

/-! ## The degrees, the edge list and the edge weights -/

theorem tgt3 (c : Dev nD) : W3 m ρ c (Proc.devRef .tc main_v11) = val_main_v14 (F := Ideal) (m ((c : Thread nD τ).loc main_arg1)) :=
  (tgt_of (W2 m ρ c)).trans (congrArg (val_main_v14 (F := Ideal)) (arg1_in m ρ c))
theorem src3 (c : Dev nD) : W3 m ρ c (Proc.devRef .tc main_v12) = val_main_v15 (F := Ideal) (m ((c : Thread nD τ).loc main_arg2)) :=
  (src_of (W2 m ρ c)).trans (congrArg (val_main_v15 (F := Ideal)) (arg2_in m ρ c))
theorem dinv3 (c : Dev nD) : W3 m ρ c (Proc.devRef .tc main_v9) = rDinv m c :=
  (dinv_of (W2 m ρ c)).trans (congrArg (val_main_v12 (F := Ideal)) (arg1_in m ρ c))
theorem dis4 (c : Dev nD) : W4 m ρ c (Proc.devRef .tc main_v22) = val_main_v25 (F := Ideal) (m ((c : Thread nD τ).loc main_arg1)) :=
  dis_of (W3 m ρ c) _
    ((pos_of (W2 m ρ c)).trans (congrArg (val_main_v21 (F := Ideal)) (arg1_in m ρ c)))
    ((rs_of (W2 m ρ c)).trans (congrArg (val_main_v24 (F := Ideal)) (arg1_in m ρ c)))
    (zero_of (W2 m ρ c))
theorem ew5 (c : Dev nD) : W5 m ρ c (Proc.devRef .tc main_v37) = val_main_v40 (F := Ideal) (m ((c : Thread nD τ).loc main_arg1)) (m ((c : Thread nD τ).loc main_arg2)) :=
  ew_of (W4 m ρ c) _ _ (dis4 m ρ c) ((tgt_at4 m ρ c).trans (tgt3 m ρ c)) ((src_at4 m ρ c).trans (src3 m ρ c))
/-- The inverse-degree column as the first stage finds it. -/
theorem dcol5 (c : Dev nD) (i : Fin 50000) :
    (V5 m ρ c main_v38 : Vec Ideal S50000x1 .f32) (ix2 i (0 : Fin 1)) = rDinv m c (ix1 i) :=
  (dcol_of (W4 m ρ c) i).trans (congrFun ((dinv_at4 m ρ c).trans (dinv3 m ρ c)) (ix1 i))

/-! ## The projection -/

theorem v1_arg0 (c : Dev nD) : V1 m ρ c main_arg0 = (m ((c : Thread nD τ).loc main_arg0)) := (arg0_at1 m ρ c).trans (W0_eq m ρ c main_arg0)
theorem v1_arg3 (c : Dev nD) : V1 m ρ c main_arg3 = (m ((c : Thread nD τ).loc main_arg3)) := (arg3_at1 m ρ c).trans (W0_eq m ρ c main_arg3)

/-- The projection's output array is the reference's projection. -/
theorem h_eq (c : Dev nD) : (dat0 (V1 m ρ) c).arrAt 3 cfg0.N = rH m c :=
  linear_array (V1 m ρ) c (m ((c : Thread nD τ).loc main_arg0)) (m ((c : Thread nD τ).loc main_arg3)) (V1 m ρ c main_v0) (v1_arg0 m ρ c) (v1_arg3 m ρ c) rfl (rH m c) fun i q => by
    refine (Cert.ReferenceIdeal.Gcn.linear_ref _ _ _ i q).trans ?_
    rw [show (V1 m ρ c main_v0 : Vec Ideal S1x128 .f32) (ix2 (0 : Fin 1) q) = ((m ((c : Thread nD τ).loc main_arg4)) : Vec Ideal S128 .f32) (ix1 q)
      from bias_of (W0 m ρ c) q]

/-! ## The first stage -/

theorem v5_h (c : Dev nD) : V5 m ρ c main_v1 = rH m c := (h_at5 m ρ c).trans ((h_at2 m ρ c).trans (h_eq m ρ c))
theorem v5_arg5 (c : Dev nD) : V5 m ρ c main_arg5 = (m ((c : Thread nD τ).loc main_arg5)) := (arg5_at5 m ρ c).trans (W0_eq m ρ c main_arg5)
theorem v5_arg7 (c : Dev nD) : V5 m ρ c main_arg7 = (m ((c : Thread nD τ).loc main_arg7)) := (arg7_at5 m ρ c).trans (W0_eq m ρ c main_arg7)

theorem xw0_eq (c : Dev nD) : (dat1 (V5 m ρ) c).arrAt 4 cfg1.N = rXw0 m c :=
  conv_array (V5 m ρ) c (rH m c) (m ((c : Thread nD τ).loc main_arg5)) (v5_h m ρ c) (v5_arg5 m ρ c) (rXw0 m c) fun i q =>
    Cert.ReferenceIdeal.Gcn.conv_ref _ _ _ _ i q

theorem rc0_eq (c : Dev nD) : (dat1 (V5 m ρ) c).arrAt 5 cfg1.N = rRc0 m c :=
  root_array (V5 m ρ) c (rH m c) (m ((c : Thread nD τ).loc main_arg7)) (V5 m ρ c main_v38) (v5_h m ρ c) (v5_arg7 m ρ c) rfl (rRc0 m c) fun i q => by
    refine (Cert.ReferenceIdeal.Gcn.root_ref _ _ _ _ _ i q).trans ?_
    rw [dcol5 m ρ c i]

/-! ## The first propagation step -/

theorem tgt6 (c : Dev nD) : W6 m ρ c (Proc.devRef .tc main_v11) = val_main_v14 (F := Ideal) (m ((c : Thread nD τ).loc main_arg1)) := (tgt_at6 m ρ c).trans (tgt3 m ρ c)
theorem src6 (c : Dev nD) : W6 m ρ c (Proc.devRef .tc main_v12) = val_main_v15 (F := Ideal) (m ((c : Thread nD τ).loc main_arg2)) := (src_at6 m ρ c).trans (src3 m ρ c)
theorem ew6 (c : Dev nD) : W6 m ρ c (Proc.devRef .tc main_v37) = val_main_v40 (F := Ideal) (m ((c : Thread nD τ).loc main_arg1)) (m ((c : Thread nD τ).loc main_arg2)) := (ew_at6 m ρ c).trans (ew5 m ρ c)

theorem step_eq (c : Dev nD) : W7 m ρ c (Proc.devRef .tc main_v56) = rStep m c :=
  prop_of (W6 m ρ c) _ _ _ _ _ _ _ _ (tgt6 m ρ c) (ew6 m ρ c) ((xw0_at6 m ρ c).trans (xw0_eq m ρ c)) (src6 m ρ c) (arg6_in6 m ρ c)
    ((rc0_at6 m ρ c).trans (rc0_eq m ρ c))

/-! ## The second stage -/

theorem v7_h (c : Dev nD) : V7 m ρ c main_v1 = rH m c := (h_at7 m ρ c).trans (v5_h m ρ c)
theorem v7_arg5 (c : Dev nD) : V7 m ρ c main_arg5 = (m ((c : Thread nD τ).loc main_arg5)) := (arg5_at7 m ρ c).trans (v5_arg5 m ρ c)
theorem v7_arg7 (c : Dev nD) : V7 m ρ c main_arg7 = (m ((c : Thread nD τ).loc main_arg7)) := (arg7_at7 m ρ c).trans (v5_arg7 m ρ c)
theorem v7_scale (c : Dev nD) (k : Fin 128) :
    (V7 m ρ c main_v59 : Vec Ideal S1x128 .f32) (ix2 (0 : Fin 1) k) = ((m ((c : Thread nD τ).loc main_arg8)) : Vec Ideal S2x128 .f32) (ix2 (1 : Fin 2) k) :=
  (scale_of (W6 m ρ c) k).trans (congrFun (arg8_in6 m ρ c) _)
theorem v7_shift (c : Dev nD) (k : Fin 128) :
    (V7 m ρ c main_v62 : Vec Ideal S1x128 .f32) (ix2 (0 : Fin 1) k) = ((m ((c : Thread nD τ).loc main_arg9)) : Vec Ideal S2x128 .f32) (ix2 (1 : Fin 2) k) :=
  (shift_of (W6 m ρ c) k).trans (congrFun (arg9_in6 m ρ c) _)
theorem dcol7 (c : Dev nD) (i : Fin 50000) :
    (V7 m ρ c main_v38 : Vec Ideal S50000x1 .f32) (ix2 i (0 : Fin 1)) = rDinv m c (ix1 i) :=
  (congrFun (dcol_at7 m ρ c) _).trans (dcol5 m ρ c i)

/-- The row the second stage works on is the reference's normalised row. -/
theorem stageRow_eq (c : Dev nD) (i : Fin 50000) (q : Fin 128) :
    stageRow (rStep m c) (rH m c) (V7 m ρ c main_v59) (V7 m ρ c main_v62) i q
      = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 i q) := by
  rw [Cert.ReferenceIdeal.Gcn.norm_ref]
  unfold stageRow
  simp only [v7_scale m ρ c, v7_shift m ρ c]

theorem xw1_eq (c : Dev nD) : (dat2 (V7 m ρ) c).arrAt 7 cfg2.N = rXw1 m c :=
  conv_array2 (V7 m ρ) c (rStep m c) (rH m c) (V7 m ρ c main_v59) (V7 m ρ c main_v62) (m ((c : Thread nD τ).loc main_arg5))
    (step_eq m ρ c) (v7_h m ρ c) rfl rfl (v7_arg5 m ρ c) (rXw1 m c) fun i q => by
    refine (Cert.ReferenceIdeal.Gcn.conv_ref2 _ _ _ _ _ _ _ _ _ _ i q).trans ?_
    refine Finset.sum_congr rfl fun k _ => ?_
    rw [stageRow_eq m ρ c i k]

theorem rc1_eq (c : Dev nD) : (dat2 (V7 m ρ) c).arrAt 8 cfg2.N = rRc1 m c :=
  root_array2 (V7 m ρ) c (rStep m c) (rH m c) (V7 m ρ c main_v59) (V7 m ρ c main_v62) (m ((c : Thread nD τ).loc main_arg7)) (V7 m ρ c main_v38)
    (step_eq m ρ c) (v7_h m ρ c) rfl rfl (v7_arg7 m ρ c) rfl (rRc1 m c) fun i q => by
    refine (Cert.ReferenceIdeal.Gcn.root_ref2 _ _ _ _ _ _ _ _ _ _ i q).trans ?_
    rw [stageRow_eq m ρ c i q, dcol7 m ρ c i]

/-! ## The result -/

theorem tgt8 (c : Dev nD) : W8 m ρ c (Proc.devRef .tc main_v11) = val_main_v14 (F := Ideal) (m ((c : Thread nD τ).loc main_arg1)) := (tgt_at8 m ρ c).trans (tgt3 m ρ c)
theorem src8 (c : Dev nD) : W8 m ρ c (Proc.devRef .tc main_v12) = val_main_v15 (F := Ideal) (m ((c : Thread nD τ).loc main_arg2)) := (src_at8 m ρ c).trans (src3 m ρ c)
theorem ew8 (c : Dev nD) : W8 m ρ c (Proc.devRef .tc main_v37) = val_main_v40 (F := Ideal) (m ((c : Thread nD τ).loc main_arg1)) (m ((c : Thread nD τ).loc main_arg2)) := (ew_at8 m ρ c).trans (ew5 m ρ c)

/-- The kernel's result buffer ends holding the reference's result stage of the kernel's arguments. -/
theorem result_eq (c : Dev nD) : W9 m ρ c (Proc.devRef .tc main_v80) = rOut m c :=
  prop2_of (W8 m ρ c) _ _ _ _ _ _ _ _ _ _ (tgt8 m ρ c) (ew8 m ρ c) ((xw1_at8 m ρ c).trans (xw1_eq m ρ c)) (src8 m ρ c) (arg6_in8 m ρ c)
    ((rc1_at8 m ρ c).trans (rc1_eq m ρ c))

/-- The kernel's run, read: the result at the reference's result stage of the arguments, the arguments unchanged. -/
theorem run_value : θ_run defs (onTc (τ := τ) (main (F := Ideal))) ⟨m, fun _ => 0, ρ⟩ (fun r => ∀ c : Dev nD,
      r.2.mem ((c.tc : Thread nD τ).loc main_v80) = rOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_result m ρ)

end Cert.KernelIdeal.Gcn

end
-- ==== Proof.lean ====
/-
  The certificate of a two-step graph convolution: a kernel made of three tiled regions (the input projection
  h = x·wᵀ + b; a first stage producing h·wcᵀ and max(h + root, 0)·dinv; a second stage that first adds the residual,
  normalises every row, scales, shifts and rectifies it, and then produces the same two arrays from that row) with the
  degree, edge-weight, gather and scatter-add arithmetic on the host between them — against the plain array program
  that computes the same chain with whole-array operations.

  At the exact instance (floats are extended reals, every operation exact, a change of float format the identity) the two
  are the same function of the ten arguments, operation for operation: a tiled matrix product into a zero accumulator is
  the host's contraction, a lane sum is the host's row sum, the kernel's reciprocal square root and division are the
  host's, and the literals (128, the epsilon, zero, one) are the same words on both sides.  No law of the extended reals
  beyond re-indexing a finite sum is used, so the finiteness of the inputs is never opened.

  The frames of the two kernel programs are the generated ones.  The reference's frame is its run with the result
  dropped.  Nothing was rewritten between the kernel and its idealization, so that conjunct is trivial.  For the last
  conjunct both runs end with the result buffer at one term — the reference's result stage of the arguments — once the
  reference's arguments are rewritten to the kernel's by their agreement.
-/
import proofs.«138754_j56521769616160_1_alg».proof.Defs
import proofs.«138754_j56521769616160_1_alg».proof.Proof.Gen.Kernel
import proofs.«138754_j56521769616160_1_alg».proof.Proof.Gen.Kernel.Skeleton
import proofs.«138754_j56521769616160_1_alg».proof.Proof.Gen.Kernel.Launch
import proofs.«138754_j56521769616160_1_alg».proof.Proof.Gen.Kernel.Points
import proofs.«138754_j56521769616160_1_alg».proof.Proof.Gen.Kernel.Frame
import proofs.«138754_j56521769616160_1_alg».proof.Proof.Gen.KernelIdeal
import proofs.«138754_j56521769616160_1_alg».proof.Proof.Gen.KernelIdeal.Skeleton
import proofs.«138754_j56521769616160_1_alg».proof.Proof.Gen.KernelIdeal.Launch
import proofs.«138754_j56521769616160_1_alg».proof.Proof.Gen.KernelIdeal.Points
import proofs.«138754_j56521769616160_1_alg».proof.Proof.Gen.KernelIdeal.Frame
import proofs.«138754_j56521769616160_1_alg».proof.Proof.Gen.ReferenceIdeal
import proofs.«138754_j56521769616160_1_alg».proof.Proof.Gen.Pre_finite_inputs
import proofs.«138754_j56521769616160_1_alg».proof.Proof.RefRunP
import proofs.«138754_j56521769616160_1_alg».proof.Proof.RefReadP
import proofs.«138754_j56521769616160_1_alg».proof.Proof.GcnValue
import Idealize.ShloMosaic.Adequacy
import Idealize.ShloMosaic.Init

noncomputable section

namespace Cert.Proof

open Idealize.ShloMosaic Idealize.SL.Sem

/-- The printed kernel runs and leaves its arguments: its generated frame. -/
theorem frame_kernel : Cert.frame_Kernel := fun m ρ _ => Cert.Kernel.Gen.frame m ρ

/-- The idealized kernel runs and leaves its arguments: its generated frame. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result at the reference's result stage of the
    kernel's arguments: the kernel by following its run boundary by boundary, the reference by its run and the agreement. -/
theorem algebraic : Cert.algebraic_KernelIdeal_ReferenceIdeal := by
  intro m ρ m' ρ' _ hagree
  refine ⟨fun c => Cert.KernelIdeal.Gcn.rOut m c, Cert.KernelIdeal.Gcn.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v123_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
